-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S10000x256 : Shape := ⟨2, ![10000, 256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S10000x256 : S_.BroadcastsInDim S10000x256 (![] : Fin 0 → Fin S10000x256.rank)
  reducesTo_S10000x256_S_d0_1 : S10000x256.ReducesTo [0, 1] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg2 : FVec F S8192x8192 .f32) (main_arg9 : FVec F S1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : IVec S8192x8192 32 := iotaInDim S8192x8192 32 0
  let main_v40 : IVec S8192x8192 32 := iotaInDim S8192x8192 32 1
  let main_c_14 : IVec S_ 32 := constantI S_ 32 5#32
  let main_v41 : IVec S8192x8192 32 := broadcastInDim S8192x8192 ![] bcast_S_S8192x8192 main_c_14
  let main_v42 : IVec S8192x8192 32 := Host.shrui main_v39 main_v41
  let main_c_15 : IVec S_ 32 := constantI S_ 32 5#32
  let main_v43 : IVec S8192x8192 32 := broadcastInDim S8192x8192 ![] bcast_S_S8192x8192 main_c_15
  let main_v44 : IVec S8192x8192 32 := Host.shrui main_v40 main_v43
  let main_v45 : IVec S8192x8192 1 := cmpi .eq main_v42 main_v44
  let main_cst_16 : FVec F S_ .f32 := constant S_ .f32 0x00000000#32
  let main_v46 : FVec F S8192x8192 .f32 := broadcastInDim S8192x8192 ![] bcast_S_S8192x8192 main_cst_16
  let main_v47 : IVec S8192x8192 1 := cmpf .oeq main_arg2 main_v46
  let main_v48 : IVec S8192x8192 1 := ori main_v45 main_v47
  let main_c_17 : IVec S_ 1 := constantI S_ 1 1#1
  let main_v49 : IVec S_ 1 := (fun x v => Host.reduce IntOp.andi x v reducesTo_S8192x8192_S_d0_1 h_S_) main_v48 main_c_17
  let main_v50 : IVec S_ 1 := andi main_v38 main_v49
  main_v50

def fn_part1 {F : FTy → Type} [FloatOps F] (main_arg2 : FVec F S8192x8192 .f32) (main_arg6 : FVec F S2x256x256 .f32) (main_arg7 : FVec F S2x256 .f32) (main_arg8 : FVec F S1x256 .f32) (main_arg9 : FVec F S1 .f32) (main_v13 : IVec S_ 1) (main_v16 : IVec S3x256 1) : IVec S_ 1 :=
  let main_c_5 : IVec S_ 1 := constantI S_ 1 1#1
  let main_v17 : IVec S_ 1 := (fun x v => Host.reduce IntOp.andi x v reducesTo_S3x256_S_d0_1 h_S_) main_v16 main_c_5
  let main_v18 : IVec S_ 1 := andi main_v13 main_v17
  let main_v19 : FVec F S2x256x256 .f32 := Host.absf main_arg6
  let main_cst_6 : FVec F S_ .f32 := constant S_ .f32 0x7F800000#32
  let main_v20 : FVec F S2x256x256 .f32 := broadcastInDim S2x256x256 ![] bcast_S_S2x256x256 main_cst_6
  let main_v21 : IVec S2x256x256 1 := cmpf .olt main_v19 main_v20
  let main_c_7 : IVec S_ 1 := constantI S_ 1 1#1
  let main_v22 : IVec S_ 1 := (fun x v => Host.reduce IntOp.andi x v reducesTo_S2x256x256_S_d0_1_2 h_S_) main_v21 main_c_7
  let main_v23 : IVec S_ 1 := andi main_v18 main_v22
  let main_v24 : FVec F S2x256 .f32 := Host.absf main_arg7
  let main_cst_8 : FVec F S_ .f32 := constant S_ .f32 0x7F800000#32
  let main_v25 : FVec F S2x256 .f32 := broadcastInDim S2x256 ![] bcast_S_S2x256 main_cst_8
  let main_v26 : IVec S2x256 1 := cmpf .olt main_v24 main_v25
  let main_c_9 : IVec S_ 1 := constantI S_ 1 1#1
  let main_v27 : IVec S_ 1 := (fun x v => Host.reduce IntOp.andi x v reducesTo_S2x256_S_d0_1 h_S_) main_v26 main_c_9
  let main_v28 : IVec S_ 1 := andi main_v23 main_v27
  let main_v29 : FVec F S1x256 .f32 := Host.absf main_arg8
  let main_cst_10 : FVec F S_ .f32 := constant S_ .f32 0x7F800000#32
  let main_v30 : FVec F S1x256 .f32 := broadcastInDim S1x256 ![] bcast_S_S1x256 main_cst_10
  let main_v31 : IVec S1x256 1 := cmpf .olt main_v29 main_v30
  let main_c_11 : IVec S_ 1 := constantI S_ 1 1#1
  let main_v32 : IVec S_ 1 := (fun x v => Host.reduce IntOp.andi x v reducesTo_S1x256_S_d0_1 h_S_) main_v31 main_c_11
  let main_v33 : IVec S_ 1 := andi main_v28 main_v32
  fn_part2 (F := F) main_arg2 main_arg9 main_v33

def fn {F : FTy → Type} [FloatOps F] (main_arg0 : IVec S8192 32) (main_arg1 : IVec S8192 32) (main_arg2 : FVec F S8192x8192 .f32) (main_arg3 : FVec F S10000x256 .f32) (main_arg4 : FVec F S3x256x256 .f32) (main_arg5 : FVec F S3x256 .f32) (main_arg6 : FVec F S2x256x256 .f32) (main_arg7 : FVec F S2x256 .f32) (main_arg8 : FVec F S1x256 .f32) (main_arg9 : FVec F S1 .f32) : IVec S_ 1 :=
  let main_v0 : FVec F S8192x8192 .f32 := Host.absf main_arg2
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S10000x256 .f32 := Host.absf main_arg3
  let main_cst_0 : FVec F S_ .f32 := constant S_ .f32 0x7F800000#32
  let main_v5 : FVec F S10000x256 .f32 := broadcastInDim S10000x256 ![] bcast_S_S10000x256 main_cst_0
  let main_v6 : IVec S10000x256 1 := cmpf .olt main_v4 main_v5
  let main_c_1 : IVec S_ 1 := constantI S_ 1 1#1
  let main_v7 : IVec S_ 1 := (fun x v => Host.reduce IntOp.andi x v reducesTo_S10000x256_S_d0_1 h_S_) main_v6 main_c_1
  let main_v8 : IVec S_ 1 := andi main_v3 main_v7
  let main_v9 : FVec F S3x256x256 .f32 := Host.absf main_arg4
  let main_cst_2 : FVec F S_ .f32 := constant S_ .f32 0x7F800000#32
  let main_v10 : FVec F S3x256x256 .f32 := broadcastInDim S3x256x256 ![] bcast_S_S3x256x256 main_cst_2
  let main_v11 : IVec S3x256x256 1 := cmpf .olt main_v9 main_v10
  let main_c_3 : IVec S_ 1 := constantI S_ 1 1#1
  let main_v12 : IVec S_ 1 := (fun x v => Host.reduce IntOp.andi x v reducesTo_S3x256x256_S_d0_1_2 h_S_) main_v11 main_c_3
  let main_v13 : IVec S_ 1 := andi main_v8 main_v12
  let main_v14 : FVec F S3x256 .f32 := Host.absf main_arg5
  let main_cst_4 : FVec F S_ .f32 := constant S_ .f32 0x7F800000#32
  let main_v15 : FVec F S3x256 .f32 := broadcastInDim S3x256 ![] bcast_S_S3x256 main_cst_4
  let main_v16 : IVec S3x256 1 := cmpf .olt main_v14 main_v15
  fn_part1 (F := F) main_arg2 main_arg6 main_arg7 main_arg8 main_arg9 main_v13 main_v16
-- ==== Kernel.lean ====
abbrev S8192 : Shape := ⟨1, ![8192]⟩
abbrev S8192x8192 : Shape := ⟨2, ![8192, 8192]⟩
abbrev S10000x256 : Shape := ⟨2, ![10000, 256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S_ : Shape := ⟨0, ![]⟩
abbrev S8192x1 : Shape := ⟨2, ![8192, 1]⟩
abbrev S8192x256 : Shape := ⟨2, ![8192, 256]⟩
abbrev S512x256 : Shape := ⟨2, ![512, 256]⟩
abbrev S512x512 : Shape := ⟨2, ![512, 512]⟩
abbrev S1x256x256 : Shape := ⟨3, ![1, 256, 256]⟩
abbrev S256x256 : Shape := ⟨2, ![256, 256]⟩
abbrev S256 : Shape := ⟨1, ![256]⟩
abbrev S512 : Shape := ⟨1, ![512]⟩
abbrev S512x1 : Shape := ⟨2, ![512, 1]⟩
abbrev S256x1 : Shape := ⟨2, ![256, 1]⟩
abbrev S1x1 : Shape := ⟨2, ![1, 1]⟩

abbrev nBuf : Space → Nat
  | .hbm => 54
  | .vmem => 8
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192x8192, .f32⟩
  | .hbm, ⟨3, _⟩ => ⟨S10000x256, .f32⟩
  | .hbm, ⟨4, _⟩ => ⟨S3x256x256, .f32⟩
  | .hbm, ⟨5, _⟩ => ⟨S3x256, .f32⟩
  | .hbm, ⟨6, _⟩ => ⟨S2x256x256, .f32⟩
  | .hbm, ⟨7, _⟩ => ⟨S2x256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x256, .f32⟩
  | .hbm, ⟨19, _⟩ => ⟨S3x256x256, .f32⟩
  | .hbm, ⟨20, _⟩ => ⟨S8192x256, .f32⟩
  | .hbm, ⟨21, _⟩ => ⟨S_, .f32⟩
  | .hbm, ⟨22, _⟩ => ⟨S256x256, .f32⟩
  | .hbm, ⟨23, _⟩ => ⟨S8192x1, .i32⟩
  | .hbm, ⟨24, _⟩ => ⟨S256x256, .f32⟩
  | .hbm, ⟨25, _⟩ => ⟨S1x256x256, .f32⟩
  | .hbm, ⟨26, _⟩ => ⟨S256x256, .f32⟩
  | .hbm, ⟨27, _⟩ => ⟨S256x256, .f32⟩
  | .hbm, ⟨28, _⟩ => ⟨S256x256, .f32⟩
  | .hbm, ⟨29, _⟩ => ⟨S1x256, .f32⟩
  | .hbm, ⟨30, _⟩ => ⟨S256, .f32⟩
  | .hbm, ⟨31, _⟩ => ⟨S1x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S1x256x256, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S1x256, .f32⟩
  | .hbm, ⟨42, _⟩ => ⟨S256, .f32⟩
  | .hbm, ⟨43, _⟩ => ⟨S1x256, .f32⟩
  | .hbm, ⟨44, _⟩ => ⟨S256x256, .f32⟩
  | .hbm, ⟨45, _⟩ => ⟨S256x256, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S256x1, .f32⟩
  | .hbm, ⟨50, _⟩ => ⟨S256x1, .f32⟩
  | .hbm, ⟨51, _⟩ => ⟨S1x1, .f32⟩
  | .hbm, ⟨52, _⟩ => ⟨S256x1, .f32⟩
  | .hbm, ⟨53, _⟩ => ⟨S256x1, .f32⟩
  | .local _ .vmem, ⟨0, _⟩ => ⟨S512x256, .f32⟩
  | .local _ .vmem, ⟨1, _⟩ => ⟨S512x256, .f32⟩
  | .local _ .vmem, ⟨2, _⟩ => ⟨S512x512, .f32⟩
  | .local _ .vmem, ⟨3, _⟩ => ⟨S512x512, .f32⟩
  | .local _ .vmem, ⟨4, _⟩ => ⟨S3x256x256, .f32⟩
  | .local _ .vmem, ⟨5, _⟩ => ⟨S3x256, .f32⟩
  | .local _ .vmem, ⟨6, _⟩ => ⟨S512x256, .f32⟩
  | .local _ .vmem, ⟨7, _⟩ => ⟨S512x256, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call1_cst : Ref sig .tc := ⟨.hbm, 46, rfl⟩
abbrev main_call1_v0 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  ![arg0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  transposes_S3x256x256_S3x256x256_0_2_1 : S3x256x256.Transposes [0, 2, 1] S3x256x256
  inb_S512x512_S512x512_0_0 : ∀ a, (![0, 0] : Fin 2 → Nat) a + S512x512.size a ≤ S512x512.size a
  h_S512x512 : 0 < S512x512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S3x256x256_S1x256x256_0_0_0 : ∀ a, (![0, 0, 0] : Fin 3 → Nat) a + S1x256x256.size a ≤ S3x256x256.size a
  h_S1x256x256 : 0 < S1x256x256.numel
  shapeCasts_S1x256x256_S256x256 : S1x256x256.ShapeCasts S256x256
  inb_S3x256_S1x256_0_0 : ∀ a, (![0, 0] : Fin 2 → Nat) a + S1x256.size a ≤ S3x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  inb_S3x256x256_S1x256x256_1_0_0 : ∀ a, (![1, 0, 0] : Fin 3 → Nat) a + S1x256x256.size a ≤ S3x256x256.size a
  inb_S3x256_S1x256_1_0 : ∀ a, (![1, 0] : Fin 2 → Nat) a + S1x256.size a ≤ S3x256.size a
  inb_S3x256x256_S1x256x256_2_0_0 : ∀ a, (![2, 0, 0] : Fin 3 → Nat) a + S1x256x256.size a ≤ S3x256x256.size a
  inb_S3x256_S1x256_2_0 : ∀ a, (![2, 0] : Fin 2 → Nat) a + S1x256.size a ≤ S3x256.size a
  bcast_S_S256x256 : S_.BroadcastsInDim S256x256 (![] : Fin 0 → Fin S256x256.rank)
  slices_S2x256x256_S1x256x256_0_0_0 : S2x256x256.Slices ![0, 0, 0] S1x256x256
  transposes_S256x256_S256x256_1_0 : S256x256.Transposes [1, 0] S256x256
  slices_S2x256_S1x256_0_0 : S2x256.Slices ![0, 0] S1x256
  bcast_S256_S1x256_1 : S256.BroadcastsInDim S1x256 (![1] : Fin 1 → Fin S1x256.rank)
  bcast_S1x256_S256x256_0_1 : S1x256.BroadcastsInDim S256x256 (![0, 1] : Fin 2 → Fin S256x256.rank)
  slices_S2x256x256_S1x256x256_1_0_0 : S2x256x256.Slices ![1, 0, 0] S1x256x256
  slices_S2x256_S1x256_1_0 : S2x256.Slices ![1, 0] S1x256
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S10000x256_S8192x1_S8192x256_1_0_n_n_0_1_1256_wf : GatherDims.WF S10000x256 S8192x1 S8192x256 [1] [0] [] [0] [] 1 ![1, 256]
  dot_S512x256_S256x256_S512x256_1_0_0_1_n_n_wf : DotDims.WF S512x256 S256x256 S512x256 [1] [0] [0] [1] [] []
  dot_S512x512_S512x256_S512x256_1_0_0_1_n_n_wf : DotDims.WF S512x512 S512x256 S512x256 [1] [0] [0] [1] [] []
  scatter_S256x256_S8192x1_S8192x256_1_0_0_1_wf : ScatterDims.WF S256x256 S8192x1 S8192x256 [1] [0] [0] 1
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x8192.size a
  hwx0_1 : ∀ i : grid0.Coords, EltTy.bits .f32 = 32 ∨ (Rect.block (s := S8192x8192) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x256x256.size a ≤ S3x256x256.size a
  hwx0_2 : ∀ i : grid0.Coords, EltTy.bits .f32 = 32 ∨ (Rect.block (s := S3x256x256) S3x256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x256.size a ≤ S3x256.size a
  hwx0_3 : ∀ i : grid0.Coords, EltTy.bits .f32 = 32 ∨ (Rect.block (s := S3x256) S3x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S8192x256.size a
  hwx0_4 : ∀ i : grid0.Coords, EltTy.bits .f32 = 32 ∨ (Rect.block (s := S8192x256) S512x256.size (cc0_transform_4 i) (hinb0_4 i)).WholeWords (EltTy.packing .f32)

variable [Facts₀]

def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def scatter_S256x256_S8192x1_S8192x256_1_0_0_1 : ScatterDims S256x256 S8192x1 S8192x256 where
  updateWindowDims := [1]
  insertedWindowDims := [0]
  scatterDimsToOperandDims := [0]
  indexVectorDim := 1
  wf := scatter_S256x256_S8192x1_S8192x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

abbrev win0_0 : Pipeline.Window sig grid0 :=
  Pipeline.Window.ofSpec (Memref.whole main_v6) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3x256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S10000x256 : Shape := ⟨2, ![10000, 256]⟩
abbrev S3x256x256 : Shape := ⟨3, ![3, 256, 256]⟩
abbrev S3x256 : Shape := ⟨2, ![3, 256]⟩
abbrev S2x256x256 : Shape := ⟨3, ![2, 256, 256]⟩
abbrev S2x256 : Shape := ⟨2, ![2, 256]⟩
abbrev S1x256 : Shape := ⟨2, ![1, 256]⟩
abbrev S1 : Shape := ⟨1, ![1]⟩
abbrev S_ : Shape := ⟨0, ![]⟩
abbrev S8192x1 : Shape := ⟨2, ![8192, 1]⟩
abbrev S8192x256 : Shape := ⟨2, ![8192, 256]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S8192, .i32⟩
  | .hbm, ⟨1, _⟩ => ⟨S8192, .i32⟩
  | .hbm, ⟨2, _⟩ => ⟨S8192x8192, .f32⟩
  | .hbm, ⟨3, _⟩ => ⟨S10000x256, .f32⟩
  | .hbm, ⟨4, _⟩ => ⟨S3x256x256, .f32⟩
  | .hbm, ⟨5, _⟩ => ⟨S3x256, .f32⟩
  | .hbm, ⟨6, _⟩ => ⟨S2x256x256, .f32⟩
  | .hbm, ⟨7, _⟩ => ⟨S2x256, .f32⟩
  | .hbm, ⟨8, _⟩ => ⟨S1x256, .f32⟩
  | .hbm, ⟨9, _⟩ => ⟨S1, .f32⟩
  | .hbm, ⟨10, _⟩ => ⟨S_, .i32⟩
  | .hbm, ⟨11, _⟩ => ⟨S8192, .i32⟩
  | .hbm, ⟨12, _⟩ => ⟨S8192, .i1⟩
  | .hbm, ⟨13, _⟩ => ⟨S_, .i32⟩
  | .hbm, ⟨14, _⟩ => ⟨S8192, .i32⟩
  | .hbm, ⟨15, _⟩ => ⟨S8192, .i32⟩
  | .hbm, ⟨16, _⟩ => ⟨S8192, .i32⟩
  | .hbm, ⟨17, _⟩ => ⟨S8192x1, .i32⟩
  | .hbm, ⟨18, _⟩ => ⟨S8192x256, .f32⟩
  | .hbm, ⟨19, _⟩ => ⟨S1x256x256, .f32⟩
  | .hbm, ⟨20, _⟩ => ⟨S256x256, .f32⟩
  | .hbm, ⟨21, _⟩ => ⟨S256x256, .f32⟩
  | .hbm, ⟨22, _⟩ => ⟨S8192x256, .f32⟩
  | .hbm, ⟨23, _⟩ => ⟨S1x256, .f32⟩
  | .hbm, ⟨24, _⟩ => ⟨S256, .f32⟩
  | .hbm, ⟨25, _⟩ => ⟨S1x256, .f32⟩
  | .hbm, ⟨26, _⟩ => ⟨S8192x256, .f32⟩
  | .hbm, ⟨27, _⟩ => ⟨S8192x256, .f32⟩
  | .hbm, ⟨28, _⟩ => ⟨S_, .f32⟩
  | .hbm, ⟨29, _⟩ => ⟨S8192x256, .f32⟩
  | .hbm, ⟨30, _⟩ => ⟨S8192x256, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x256, .f32⟩
  | .hbm, ⟨42, _⟩ => ⟨S8192x256, .f32⟩
  | .hbm, ⟨43, _⟩ => ⟨S1x256x256, .f32⟩
  | .hbm, ⟨44, _⟩ => ⟨S256x256, .f32⟩
  | .hbm, ⟨45, _⟩ => ⟨S256x256, .f32⟩
  | .hbm, ⟨46, _⟩ => ⟨S8192x256, .f32⟩
  | .hbm, ⟨47, _⟩ => ⟨S1x256, .f32⟩
  | .hbm, ⟨48, _⟩ => ⟨S256, .f32⟩
  | .hbm, ⟨49, _⟩ => ⟨S1x256, .f32⟩
  | .hbm, ⟨50, _⟩ => ⟨S8192x256, .f32⟩
  | .hbm, ⟨51, _⟩ => ⟨S8192x256, .f32⟩
  | .hbm, ⟨52, _⟩ => ⟨S_, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x256, .f32⟩
  | .hbm, ⟨66, _⟩ => ⟨S8192x256, .f32⟩
  | .hbm, ⟨67, _⟩ => ⟨S1x256x256, .f32⟩
  | .hbm, ⟨68, _⟩ => ⟨S256x256, .f32⟩
  | .hbm, ⟨69, _⟩ => ⟨S256x256, .f32⟩
  | .hbm, ⟨70, _⟩ => ⟨S8192x256, .f32⟩
  | .hbm, ⟨71, _⟩ => ⟨S1x256, .f32⟩
  | .hbm, ⟨72, _⟩ => ⟨S256, .f32⟩
  | .hbm, ⟨73, _⟩ => ⟨S1x256, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192x256, .f32⟩
  | .hbm, ⟨78, _⟩ => ⟨S8192x256, .f32⟩
  | .hbm, ⟨79, _⟩ => ⟨S8192x256, .f32⟩
  | .hbm, ⟨80, _⟩ => ⟨S8192x256, .f32⟩
  | .hbm, ⟨81, _⟩ => ⟨S8192x256, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x256, .f32⟩
  | .hbm, ⟨90, _⟩ => ⟨S8192x256, .f32⟩
  | .hbm, ⟨91, _⟩ => ⟨S_, .f32⟩
  | .hbm, ⟨92, _⟩ => ⟨S256x256, .f32⟩
  | .hbm, ⟨93, _⟩ => ⟨S8192x1, .i32⟩
  | .hbm, ⟨94, _⟩ => ⟨S256x256, .f32⟩
  | .hbm, ⟨95, _⟩ => ⟨S1x256x256, .f32⟩
  | .hbm, ⟨96, _⟩ => ⟨S256x256, .f32⟩
  | .hbm, ⟨97, _⟩ => ⟨S256x256, .f32⟩
  | .hbm, ⟨98, _⟩ => ⟨S256x256, .f32⟩
  | .hbm, ⟨99, _⟩ => ⟨S1x256, .f32⟩
  | .hbm, ⟨100, _⟩ => ⟨S256, .f32⟩
  | .hbm, ⟨101, _⟩ => ⟨S1x256, .f32⟩
  | .hbm, ⟨102, _⟩ => ⟨S256x256, .f32⟩
  | .hbm, ⟨103, _⟩ => ⟨S256x256, .f32⟩
  | .hbm, ⟨104, _⟩ => ⟨S_, .f32⟩
  | .hbm, ⟨105, _⟩ => ⟨S256x256, .f32⟩
  | .hbm, ⟨106, _⟩ => ⟨S256x256, .f32⟩
  | .hbm, ⟨107, _⟩ => ⟨S1x256x256, .f32⟩
  | .hbm, ⟨108, _⟩ => ⟨S256x256, .f32⟩
  | .hbm, ⟨109, _⟩ => ⟨S256x256, .f32⟩
  | .hbm, ⟨110, _⟩ => ⟨S256x256, .f32⟩
  | .hbm, ⟨111, _⟩ => ⟨S1x256, .f32⟩
  | .hbm, ⟨112, _⟩ => ⟨S256, .f32⟩
  | .hbm, ⟨113, _⟩ => ⟨S1x256, .f32⟩
  | .hbm, ⟨114, _⟩ => ⟨S256x256, .f32⟩
  | .hbm, ⟨115, _⟩ => ⟨S256x256, .f32⟩
  | .hbm, ⟨116, _⟩ => ⟨S_, .f32⟩
  | .hbm, ⟨117, _⟩ => ⟨S256x256, .f32⟩
  | .hbm, ⟨118, _⟩ => ⟨S256x256, .f32⟩
  | .hbm, ⟨119, _⟩ => ⟨S256x1, .f32⟩
  | .hbm, ⟨120, _⟩ => ⟨S256x1, .f32⟩
  | .hbm, ⟨121, _⟩ => ⟨S1x1, .f32⟩
  | .hbm, ⟨122, _⟩ => ⟨S256x1, .f32⟩
  | .hbm, ⟨123, _⟩ => ⟨S256x1, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_cst : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call2_cst : Ref sig .tc := ⟨.hbm, 52, rfl⟩
abbrev main_call2_v0 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call3_v0 : Ref sig .tc := ⟨.hbm, 57, rfl⟩
abbrev main_call3_cst : Ref sig .tc := ⟨.hbm, 58, rfl⟩
abbrev main_call3_v1 : Ref sig .tc := ⟨.hbm, 59, rfl⟩
abbrev main_call3_v2 : Ref sig .tc := ⟨.hbm, 60, rfl⟩
abbrev main_v36 : Ref sig .tc := ⟨.hbm, 61, rfl⟩
abbrev main_cst_1 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_call4_cst : Ref sig .tc := ⟨.hbm, 76, rfl⟩
abbrev main_call4_v0 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_call5_v0 : Ref sig .tc := ⟨.hbm, 81, rfl⟩
abbrev main_call5_cst : Ref sig .tc := ⟨.hbm, 82, rfl⟩
abbrev main_call5_v1 : Ref sig .tc := ⟨.hbm, 83, rfl⟩
abbrev main_call5_v2 : Ref sig .tc := ⟨.hbm, 84, rfl⟩
abbrev main_v53 : Ref sig .tc := ⟨.hbm, 85, rfl⟩
abbrev main_cst_2 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_3 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call6_cst : Ref sig .tc := ⟨.hbm, 104, rfl⟩
abbrev main_call6_v0 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_call7_cst : Ref sig .tc := ⟨.hbm, 116, rfl⟩
abbrev main_call7_v0 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  slices_S3x256x256_S1x256x256_0_0_0 : S3x256x256.Slices ![0, 0, 0] S1x256x256
  shapeCasts_S1x256x256_S256x256 : S1x256x256.ShapeCasts S256x256
  transposes_S256x256_S256x256_1_0 : S256x256.Transposes [1, 0] S256x256
  slices_S3x256_S1x256_0_0 : S3x256.Slices ![0, 0] S1x256
  shapeCasts_S1x256_S256 : S1x256.ShapeCasts S256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x256_S8192_d1 : S8192x256.ReducesTo [1] S8192
  h_S_ : 0 < S_.numel
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S256x256 : S_.BroadcastsInDim S256x256 (![] : Fin 0 → Fin S256x256.rank)
  slices_S2x256x256_S1x256x256_0_0_0 : S2x256x256.Slices ![0, 0, 0] S1x256x256
  slices_S2x256_S1x256_0_0 : S2x256.Slices ![0, 0] S1x256
  bcast_S1x256_S256x256_0_1 : S1x256.BroadcastsInDim S256x256 (![0, 1] : Fin 2 → Fin S256x256.rank)
  slices_S2x256x256_S1x256x256_1_0_0 : S2x256x256.Slices ![1, 0, 0] S1x256x256
  slices_S2x256_S1x256_1_0 : S2x256.Slices ![1, 0] S1x256
  transposes_S1x256_S256x1_1_0 : S1x256.Transposes [1, 0] S256x1
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S10000x256_S8192x1_S8192x256_1_0_n_n_0_1_1256_wf : GatherDims.WF S10000x256 S8192x1 S8192x256 [1] [0] [] [0] [] 1 ![1, 256]
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  scatter_S256x256_S8192x1_S8192x256_1_0_0_1_wf : ScatterDims.WF S256x256 S8192x1 S8192x256 [1] [0] [0] 1
  dot_S256x256_S256x256_S256x256_1_0_0_1_n_n_wf : DotDims.WF S256x256 S256x256 S256x256 [1] [0] [0] [1] [] []
  dot_S256x256_S256x1_S256x1_1_0_0_1_n_n_wf : DotDims.WF S256x256 S256x1 S256x1 [1] [0] [0] [1] [] []

variable [Facts₀]

def gather_S10000x256_S8192x1_S8192x256_1_0_n_n_0_1_1256 : GatherDims S10000x256 S8192x1 S8192x256 where
  offsetDims := [1]
  collapsedSliceDims := [0]
  operandBatchingDims := []
  startIndicesBatchingDims := []
  startIndexMap := [0]
  indexVectorDim := 1
  sliceSizes := ![1, 256]
  wf := gather_S10000x256_S8192x1_S8192x256_1_0_n_n_0_1_1256_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def scatter_S256x256_S8192x1_S8192x256_1_0_0_1 : ScatterDims S256x256 S8192x1 S8192x256 where
  updateWindowDims := [1]
  insertedWindowDims := [0]
  scatterDimsToOperandDims := [0]
  indexVectorDim := 1
  wf := scatter_S256x256_S8192x1_S8192x256_1_0_0_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S256x256_S256x1_S256x1_1_0_0_1_n_n : DotDims S256x256 S256x1 S256x1 where
  lhsContracting := [1]
  rhsContracting := [0]
  lhsNonContracting := [0]
  rhsNonContracting := [1]
  lhsBatch := []
  rhsBatch := []
  wf := dot_S256x256_S256x1_S256x1_1_0_0_1_n_n_wf

class Facts : Prop extends Facts₀ where

variable [Facts]
-- ==== Proof.AdjBlockDiag.lean ====
import proofs.«145918_j75840532512927_2_alg».proof.Pre_finite_inputs
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

/-
  The last conjunct of the precondition says that the adjacency matrix is block-diagonal with 32 × 32 blocks: at every
  index (r, c), either r and c have the same quotient by 32 (written on 32-bit words: the same logical shift right by 5),
  or the entry equals 0.0. Here that conjunct is read back at the extended reals: an entry whose row and column lie in
  different blocks of 32 is the extended real 0.

  Three steps. On words: for n below 2^32 the shift right by 5 of the word of n is the word of n / 32, so two equal
  shifts mean equal quotients. On extended reals: the ordered comparison "x equals the value of the word 0x00000000" is
  the equality x = 0. The precondition: it is a conjunction of "for all indices" statements, each an and-reduction of
  one-bit words that came out 1, so every word that went in was 1; the last of them, at the index (r, c), is the
  disjunction above.
-/

noncomputable section

namespace Cert.Gnn

open Idealize.ShloMosaic

/-- For n below 2^32, the logical shift right by 5 of the 32-bit word of n is n / 32: the shift amount 5 is below
    the width, so the shift is the plain one, and the word of n reads back n. -/
theorem shrui5_toNat (n : Nat) (hn : n < 2 ^ 32) :
    (IntOp.shrui .host (BitVec.ofNat 32 n) 5#32).toNat = n / 32 := by
  unfold IntOp.shrui
  rw [if_pos (by decide)]
  rw [BitVec.ushiftRight_eq', BitVec.toNat_ushiftRight, BitVec.toNat_ofNat, Nat.mod_eq_of_lt hn,
    Nat.shiftRight_eq_div_pow]
  rfl

/-- Two numbers below 2^32 whose words have equal shifts right by 5 have equal quotients by 32. -/
theorem div32_eq_of_cmpi_shrui5 (a b : Nat) (ha : a < 2 ^ 32) (hb : b < 2 ^ 32)
    (h : IntOp.cmpi .eq (IntOp.shrui .host (BitVec.ofNat 32 a) 5#32)
      (IntOp.shrui .host (BitVec.ofNat 32 b) 5#32) = 1#1) :
    a / 32 = b / 32 := by
  rw [← shrui5_toNat a ha, ← shrui5_toNat b hb, IntOp.cmpi_eq.1 h]

/-- On the extended reals the comparison "x equals the value of the word 0x00000000" holds only of x = 0: that word
    denotes 0, and the comparison is the decision of equality. -/
theorem eq_zero_of_cmpf_oeq_zero (x : Ideal .f32)
    (h : FloatOps.cmpf .oeq x (Ideal.ofBits .f32 0x00000000#32) = 1#1) : x = 0 := by
  rw [Ideal.ofBits_zero_f32, Ideal.cmpf_def] at h
  change BitVec.ofBool (decide (x = 0)) = 1#1 at h
  by_contra hx
  rw [decide_eq_false hx] at h
  exact absurd h (by decide)

/-- Under the precondition, an entry of the adjacency matrix whose row and column lie in different blocks of 32 is 0. -/
theorem adj_blockDiag_of_pre [Cert.Pre_finite_inputs.Facts]
    (x0 x1 : IVec Cert.Pre_finite_inputs.S8192 32) (x2 : FVec Ideal Cert.Pre_finite_inputs.S8192x8192 .f32)
    (x3 : FVec Ideal Cert.Pre_finite_inputs.S10000x256 .f32) (x4 : FVec Ideal Cert.Pre_finite_inputs.S3x256x256 .f32)
    (x5 : FVec Ideal Cert.Pre_finite_inputs.S3x256 .f32) (x6 : FVec Ideal Cert.Pre_finite_inputs.S2x256x256 .f32)
    (x7 : FVec Ideal Cert.Pre_finite_inputs.S2x256 .f32) (x8 : FVec Ideal Cert.Pre_finite_inputs.S1x256 .f32)
    (x9 : FVec Ideal Cert.Pre_finite_inputs.S1 .f32)
    (h : Cert.Pre_finite_inputs.fn (F := Ideal) x0 x1 x2 x3 x4 x5 x6 x7 x8 x9 = fun _ => 1#1) :
    ∀ i : Cert.Pre_finite_inputs.S8192x8192.Idx, (i 0).val / 32 ≠ (i 1).val / 32 → x2 i = 0 := by
  intro i hi
  -- the precondition's one word, with its chain of operations in view
  have h0 := congrFun h ValueIdx.ix0
  dsimp only [Cert.Pre_finite_inputs.fn, Cert.Pre_finite_inputs.fn_part1, Cert.Pre_finite_inputs.fn_part2] at h0
  -- it is the conjunction of everything before with the last and-reduction: keep the last
  have h1 := (IntOp.andi_eq_one.1 h0).2
  -- an and-reduction over all indices that is 1 had a 1 at (r, c); the scalar shape of its result has one index
  haveI : Subsingleton Cert.Pre_finite_inputs.S_.Idx := ⟨fun a b => funext fun d => d.elim0⟩
  have h2 := Host.reduce_andi_all _ _ _ _ _ h1 i
  -- that word is "same block" or "entry equals 0.0"
  rcases IntOp.ori_eq_one.1 h2 with hc | hf
  · have h0' := ValueIdx.idx2_lt0 i
    have h1' := ValueIdx.idx2_lt1 i
    exact absurd (div32_eq_of_cmpi_shrui5 (i 0).val (i 1).val (by omega) (by omega) hc) hi
  · exact eq_zero_of_cmpf_oeq_zero (x2 i) hf

end Cert.Gnn
-- ==== Proof.LayerSpec.lean ====
/-
  One message-passing layer of the graph network, as a function of plain arrays over the extended reals, for any
  finite set of nodes `ι`:

    hidden  h[r, j] = max (Σ_k v[r, k] · W[j, k] + b[j]) 0                  (a linear map of the node's row, then relu)
    mixed   g[r, j] = h[r, j] + Σ_c A[r, c] · h[c, j]                       (the node's own row plus its neighbours')
    layer   v'[r, j] = g[r, j] / max (√(Σ_k g[r, k]²)) ε                    (the row scaled to unit length, ε the floor)

  Only `mixed` looks at other nodes, and only through `A`. So if `κ` is a set of nodes that is closed under `A`
  (no entry of `A` joins a node of `κ` to a node outside it), the layer of the whole graph, read at a node of `κ`, is
  the layer of the subgraph on `κ`: the terms of Σ_c outside `κ` are `0 · h = 0` (on the extended reals `0 · x = 0`
  for every `x`, infinite ones included, so nothing has to be finite), and a sum over `ι` whose terms vanish off the
  image of `κ` is the sum over `κ`. This is `layerFn_restrict`; `layerFn_restrict_rows` is the same for all rows of
  `κ` at once, the form in which layers compose.
-/
import Idealize.ShloMosaic.PureOps.Ideal
import Idealize.ShloMosaic.PureOps.Ideal.Laws

noncomputable section

namespace Cert.Gnn

open Idealize.ShloMosaic

/-- The floor under a row's length before the division: the f32 word both programs carry (about 1e-12). -/
abbrev normFloor : EReal := Ideal.ofBits .f32 0x2B8CBCCC#32

/-- `max (v[r, ·] · W[j, ·] + b[j]) 0`: the linear map of one node's row and the relu. -/
def hidden {ι : Type} (v : ι → Fin 256 → EReal) (W : Fin 256 → Fin 256 → EReal) (b : Fin 256 → EReal)
    (r : ι) (j : Fin 256) : EReal :=
  max ((∑ k : Fin 256, v r k * W j k) + b j) 0

/-- A node's own row plus the `A`-weighted sum of all rows. -/
def mixed {ι : Type} [Fintype ι] (A : ι → ι → EReal) (h : ι → Fin 256 → EReal) (r : ι) (j : Fin 256) : EReal :=
  h r j + ∑ c : ι, A r c * h c j

/-- A row divided by its length, the length floored at `normFloor`. -/
def normalized (g : Fin 256 → EReal) (j : Fin 256) : EReal :=
  Ideal.div (g j) (max (Ideal.sqrt (∑ k : Fin 256, g k * g k)) normFloor)

/-- One layer on the nodes `ι`. -/
def layerFn {ι : Type} [Fintype ι] (A : ι → ι → EReal) (v : ι → Fin 256 → EReal) (W : Fin 256 → Fin 256 → EReal)
    (b : Fin 256 → EReal) : ι → Fin 256 → EReal :=
  fun r => normalized (mixed A (hidden v W b) r)

/-- The neighbour sum of a node of `κ` only ranges over `κ` when `A` has no entry from that node out of `κ`. -/
theorem mixed_restrict {ι κ : Type} [Fintype ι] [Fintype κ] (e : κ → ι) (he : Function.Injective e)
    (A : ι → ι → EReal) (h : ι → Fin 256 → EReal) (r : κ)
    (hA : ∀ c : ι, c ∉ Set.range e → A (e r) c = 0) (j : Fin 256) :
    mixed A h (e r) j = mixed (fun a c => A (e a) (e c)) (fun a => h (e a)) r j := by
  unfold mixed
  refine congrArg (h (e r) j + ·) ?_
  exact (Fintype.sum_of_injective e he (fun c : κ => A (e r) (e c) * h (e c) j) (fun c : ι => A (e r) c * h c j)
    (fun c hc => by rw [hA c hc, zero_mul]) (fun _ => rfl)).symm

/-- The layer of the whole graph at a node of `κ` is the layer of the subgraph on `κ`. -/
theorem layerFn_restrict {ι κ : Type} [Fintype ι] [Fintype κ] (e : κ → ι) (he : Function.Injective e)
    (A : ι → ι → EReal) (v : ι → Fin 256 → EReal) (W : Fin 256 → Fin 256 → EReal) (b : Fin 256 → EReal) (r : κ)
    (hA : ∀ c : ι, c ∉ Set.range e → A (e r) c = 0) :
    layerFn A v W b (e r) = layerFn (fun a c => A (e a) (e c)) (fun a => v (e a)) W b r := by
  unfold layerFn
  refine congrArg normalized ?_
  funext j
  exact mixed_restrict e he A (hidden v W b) r hA j

/-- The same for every node of `κ` at once. -/
theorem layerFn_restrict_rows {ι κ : Type} [Fintype ι] [Fintype κ] (e : κ → ι) (he : Function.Injective e)
    (A : ι → ι → EReal) (v : ι → Fin 256 → EReal) (W : Fin 256 → Fin 256 → EReal) (b : Fin 256 → EReal)
    (hA : ∀ (a : κ) (c : ι), c ∉ Set.range e → A (e a) c = 0) :
    (fun a => layerFn A v W b (e a)) = layerFn (fun a c => A (e a) (e c)) (fun a => v (e a)) W b :=
  funext fun a => layerFn_restrict e he A v W b a (hA a)

end Cert.Gnn

end
-- ==== Proof.TileLayer.lean ====
/-
  The kernel body, read as mathematics. At one grid point the body holds a tile of 512 nodes: their rows `v` [512, 256], the
  512 × 512 diagonal tile `adj` of the adjacency, and the three layers' weights (already transposed on the host, so slice `l`
  is `w[0, k, j] = w_sub[l][j][k]`) and biases. It applies, three times, ONE layer to the tile:

    tileHidden  h = max (v · w + b) 0
    tileMixed   g = h + adj · h
    tileNorm    v' = g / max (√(row sums of g²)) ε

  `pay2_eq`, `pay3_eq`, `pay1_eq` say the body's three payloads are these, composed; `tileHidden_apply`, `tileMixed_apply`,
  `tileNorm_apply` read each at an entry (r, j) of the tile on the extended reals, where a matrix product is the plain sum
  over the contracted axis and a row reduction the plain sum over the row; together (`tileLayer_apply`) the body's layer is
  the specification's `layerFn` on the 512 nodes of the tile.
-/
import proofs.«145918_j75840532512927_2_alg».proof.Proof.Gen.KernelIdeal.Skeleton
import proofs.«145918_j75840532512927_2_alg».proof.Proof.LayerSpec
import Idealize.ShloMosaic.Lib.ValueIdx
import Idealize.ShloMosaic.Lib.ValueLayout
import Idealize.ShloMosaic.Lib.Pipeline.Value
import Idealize.ShloMosaic.PureOps.Ideal.Laws

noncomputable section

namespace Cert.Gnn.Tile

open Idealize.ShloMosaic Idealize.ShloMosaic.ValueIdx Cert.KernelIdeal

variable [Cert.KernelIdeal.Facts]
open Cert.KernelIdeal.Facts₀ Cert.KernelIdeal.Facts

/-! ## One layer on a tile, as the body spells it -/

/-- `max (v · w + b) 0` on the tile: the weights' slice as a matrix, the bias as a row repeated down the tile. -/
def tileHidden {F : FTy → Type} [FloatOps F] (v : FVec F S512x256 .f32) (w : Vec F S1x256x256 .f32) (b : Vec F S1x256 .f32) :
    FVec F S512x256 .f32 :=
  maximumf
    (addf (matmul dot_S512x256_S256x256_S512x256_1_0_0_1_n_n (some .fp32) v (shapeCast S256x256 w shapeCasts_S1x256x256_S256x256) (constant S512x256 .f32 0x00000000#32))
      (broadcastTo S512x256 (shapeCast S1x256 (shapeCast S256 b shapeCasts_S1x256_S256) shapeCasts_S256_S1x256) broadcasts_S1x256_S512x256))
    (broadcast S512x256 (Scalar.ofBits .f32 0x00000000#32))

/-- `h + adj · h` on the tile. -/
def tileMixed {F : FTy → Type} [FloatOps F] (adj : Vec F S512x512 .f32) (h : FVec F S512x256 .f32) : FVec F S512x256 .f32 :=
  addf h (matmul dot_S512x512_S512x256_S512x256_1_0_0_1_n_n (some .fp32) adj h (constant S512x256 .f32 0x00000000#32))

/-- Each row of the tile divided by its length, floored. -/
def tileNorm {F : FTy → Type} [FloatOps F] (g : FVec F S512x256 .f32) : FVec F S512x256 .f32 :=
  divf g (broadcastTo S512x256
    (maximumf (sqrt (shapeCast S512x1 (multiReduction .add [1] S512 (mulf g g) 0x00000000#32 reduces_S512x256_S512 (.inl rfl) rfl) shapeCasts_S512_S512x1))
      (broadcast S512x1 (Scalar.ofBits .f32 0x2B8CBCCC#32)))
    broadcasts_S512x1_S512x256)

/-- One layer on the tile. -/
def tileLayer {F : FTy → Type} [FloatOps F] (adj : Vec F S512x512 .f32) (v : FVec F S512x256 .f32) (w : Vec F S1x256x256 .f32)
    (b : Vec F S1x256 .f32) : FVec F S512x256 .f32 :=
  tileNorm (tileMixed adj (tileHidden v w b))

/-! ## The body's payloads are these -/

variable {F : FTy → Type} [FloatOps F]

/-- The first payload: layer 1, then layer 2 up to the sum `h + adj · h`. -/
theorem pay2_eq (adj : Vec F S512x512 .f32) (v1 : Vec F S512x256 .f32) (w0 : Vec F S1x256x256 .f32) (b0 : Vec F S1x256 .f32)
    (w1 : Vec F S1x256x256 .f32) (b1 : Vec F S1x256 .f32) :
    Gen.k0_pay2 adj v1 w0 b0 w1 b1
      = tileMixed adj (tileHidden (tileLayer adj (shapeCast S512x256 v1 shapeCasts_S512x256_S512x256) w0 b0) w1 b1) := rfl

/-- The second payload is the first one's square, entry by entry. -/
theorem pay3_eq (adj : Vec F S512x512 .f32) (v1 : Vec F S512x256 .f32) (w0 : Vec F S1x256x256 .f32) (b0 : Vec F S1x256 .f32)
    (w1 : Vec F S1x256x256 .f32) (b1 : Vec F S1x256 .f32) :
    Gen.k0_pay3 adj v1 w0 b0 w1 b1 = mulf (Gen.k0_pay2 adj v1 w0 b0 w1 b1) (Gen.k0_pay2 adj v1 w0 b0 w1 b1) := rfl

/-- The stored payload, of ANY sum `g` and its square: layer 2's division, then layer 3. -/
theorem pay1_eq (adj : Vec F S512x512 .f32) (g : FVec F S512x256 .f32) (w2 : Vec F S1x256x256 .f32) (b2 : Vec F S1x256 .f32) :
    Gen.k0_pay1 adj g (mulf g g) w2 b2 = tileLayer adj (tileNorm g) w2 b2 := rfl

/-- So what the body stores is three layers on the tile. -/
theorem stored_eq (adj : Vec F S512x512 .f32) (v1 : Vec F S512x256 .f32) (w0 : Vec F S1x256x256 .f32) (b0 : Vec F S1x256 .f32)
    (w1 : Vec F S1x256x256 .f32) (b1 : Vec F S1x256 .f32) (w2 : Vec F S1x256x256 .f32) (b2 : Vec F S1x256 .f32) :
    Gen.k0_pay1 adj (Gen.k0_pay2 adj v1 w0 b0 w1 b1) (Gen.k0_pay3 adj v1 w0 b0 w1 b1) w2 b2
      = tileLayer adj (tileLayer adj (tileLayer adj (shapeCast S512x256 v1 shapeCasts_S512x256_S512x256) w0 b0) w1 b1) w2 b2 := by
  rw [pay3_eq, pay1_eq, pay2_eq]
  rfl

/-! ## The two matrix products at an entry -/

theorem linDot_lhs0 (i : S512x256.Idx) (q : dot_S512x256_S256x256_S512x256_1_0_0_1_n_n.contr.Idx) : (dot_S512x256_S256x256_S512x256_1_0_0_1_n_n.lhsIdx i q 0).val = (i 0).val := by
  unfold DotDims.lhsIdx
  rw [dif_neg (show ¬(0 : Fin S512x256.rank) ∈ dot_S512x256_S256x256_S512x256_1_0_0_1_n_n.lhsBatch by decide), dif_pos (show (0 : Fin S512x256.rank) ∈ dot_S512x256_S256x256_S512x256_1_0_0_1_n_n.lhsNonContracting by decide)]
  rfl
theorem linDot_lhs1 (i : S512x256.Idx) (q : dot_S512x256_S256x256_S512x256_1_0_0_1_n_n.contr.Idx) : (dot_S512x256_S256x256_S512x256_1_0_0_1_n_n.lhsIdx i q 1).val = (q ⟨0, by decide⟩).val :=
  dot_S512x256_S256x256_S512x256_1_0_0_1_n_n.lhsIdx_val_of_single rfl i q
theorem linDot_rhs0 (i : S512x256.Idx) (q : dot_S512x256_S256x256_S512x256_1_0_0_1_n_n.contr.Idx) : (dot_S512x256_S256x256_S512x256_1_0_0_1_n_n.rhsIdx i q 0).val = (q ⟨0, by decide⟩).val :=
  dot_S512x256_S256x256_S512x256_1_0_0_1_n_n.rhsIdx_val_of_single rfl i q
theorem linDot_rhs1 (i : S512x256.Idx) (q : dot_S512x256_S256x256_S512x256_1_0_0_1_n_n.contr.Idx) : (dot_S512x256_S256x256_S512x256_1_0_0_1_n_n.rhsIdx i q 1).val = (i 1).val := by
  unfold DotDims.rhsIdx
  rw [dif_neg (show ¬(1 : Fin S256x256.rank) ∈ dot_S512x256_S256x256_S512x256_1_0_0_1_n_n.rhsBatch by decide), dif_pos (show (1 : Fin S256x256.rank) ∈ dot_S512x256_S256x256_S512x256_1_0_0_1_n_n.rhsNonContracting by decide)]
  rfl

/-- The matrix product into a zero accumulator, at an entry: the sum over the contracted axis of the products. -/
theorem linDot_apply (lhs : FVec Ideal S512x256 .f32) (rhs : FVec Ideal S256x256 .f32) (a : Fin 512) (q : Fin 256) :
    matmul dot_S512x256_S256x256_S512x256_1_0_0_1_n_n (some .fp32) lhs rhs (constant S512x256 .f32 0x00000000#32) (ix2 a q)
      = ∑ k : Fin 256, lhs (ix2 a k) * rhs (ix2 k q) := by
  simp only [matmul]
  rw [Ideal.matmul_constant_zero_apply, ← Equiv.sum_comp (ValueIdx.contrEquiv1 dot_S512x256_S256x256_S512x256_1_0_0_1_n_n 256 rfl rfl).symm]
  refine Finset.sum_congr rfl fun k _ => ?_
  have hk := ValueIdx.contrEquiv1_symm_val dot_S512x256_S256x256_S512x256_1_0_0_1_n_n 256 rfl rfl k
  have el : dot_S512x256_S256x256_S512x256_1_0_0_1_n_n.lhsIdx (ix2 a q) ((ValueIdx.contrEquiv1 dot_S512x256_S256x256_S512x256_1_0_0_1_n_n 256 rfl rfl).symm k) = ix2 a k := funext fun x => Fin.ext (by
    match x with
    | ⟨0, _⟩ => exact linDot_lhs0 _ _
    | ⟨1, _⟩ => exact (linDot_lhs1 _ _).trans hk)
  have er : dot_S512x256_S256x256_S512x256_1_0_0_1_n_n.rhsIdx (ix2 a q) ((ValueIdx.contrEquiv1 dot_S512x256_S256x256_S512x256_1_0_0_1_n_n 256 rfl rfl).symm k) = ix2 k q := funext fun x => Fin.ext (by
    match x with
    | ⟨0, _⟩ => exact (linDot_rhs0 _ _).trans hk
    | ⟨1, _⟩ => exact linDot_rhs1 _ _)
  rw [el, er]

theorem adjDot_lhs0 (i : S512x256.Idx) (q : dot_S512x512_S512x256_S512x256_1_0_0_1_n_n.contr.Idx) : (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem adjDot_lhs1 (i : S512x256.Idx) (q : dot_S512x512_S512x256_S512x256_1_0_0_1_n_n.contr.Idx) : (dot_S512x512_S512x256_S512x256_1_0_0_1_n_n.lhsIdx i q 1).val = (q ⟨0, by decide⟩).val :=
  dot_S512x512_S512x256_S512x256_1_0_0_1_n_n.lhsIdx_val_of_single rfl i q
theorem adjDot_rhs0 (i : S512x256.Idx) (q : dot_S512x512_S512x256_S512x256_1_0_0_1_n_n.contr.Idx) : (dot_S512x512_S512x256_S512x256_1_0_0_1_n_n.rhsIdx i q 0).val = (q ⟨0, by decide⟩).val :=
  dot_S512x512_S512x256_S512x256_1_0_0_1_n_n.rhsIdx_val_of_single rfl i q
theorem adjDot_rhs1 (i : S512x256.Idx) (q : dot_S512x512_S512x256_S512x256_1_0_0_1_n_n.contr.Idx) : (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The matrix product into a zero accumulator, at an entry: the sum over the contracted axis of the products. -/
theorem adjDot_apply (lhs : FVec Ideal S512x512 .f32) (rhs : FVec Ideal S512x256 .f32) (a : Fin 512) (q : Fin 256) :
    matmul dot_S512x512_S512x256_S512x256_1_0_0_1_n_n (some .fp32) lhs rhs (constant S512x256 .f32 0x00000000#32) (ix2 a q)
      = ∑ k : Fin 512, lhs (ix2 a k) * rhs (ix2 k q) := by
  simp only [matmul]
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 a q) ((ValueIdx.contrEquiv1 dot_S512x512_S512x256_S512x256_1_0_0_1_n_n 512 rfl rfl).symm k) = ix2 a k := funext fun x => Fin.ext (by
    match x with
    | ⟨0, _⟩ => exact adjDot_lhs0 _ _
    | ⟨1, _⟩ => exact (adjDot_lhs1 _ _).trans hk)
  have er : dot_S512x512_S512x256_S512x256_1_0_0_1_n_n.rhsIdx (ix2 a q) ((ValueIdx.contrEquiv1 dot_S512x512_S512x256_S512x256_1_0_0_1_n_n 512 rfl rfl).symm k) = ix2 k q := funext fun x => Fin.ext (by
    match x with
    | ⟨0, _⟩ => exact (adjDot_rhs0 _ _).trans hk
    | ⟨1, _⟩ => exact adjDot_rhs1 _ _)
  rw [el, er]

/-! ## Each step at an entry of the tile, on the extended reals -/

/-- The bias row, repeated down the tile, at an entry: the bias of the column. -/
theorem biasRow_apply (b : Vec Ideal S1x256 .f32) (a : Fin 512) (q : Fin 256) :
    broadcastTo S512x256 (shapeCast S1x256 (shapeCast S256 b shapeCasts_S1x256_S256) shapeCasts_S256_S1x256) broadcasts_S1x256_S512x256 (ix2 a q)
      = b (ix2 (0 : Fin 1) q) := by
  rw [broadcastTo_1b_ab_apply, shapeCast_a_1a_apply, shapeCast_1a_a_apply]

theorem tileHidden_apply (v : FVec Ideal S512x256 .f32) (w : Vec Ideal S1x256x256 .f32) (b : Vec Ideal S1x256 .f32)
    (a : Fin 512) (q : Fin 256) :
    tileHidden (F := Ideal) v w b (ix2 a q)
      = Cert.Gnn.hidden (fun a k => v (ix2 a k)) (fun j k => w (ix3 (0 : Fin 1) k j)) (fun j => b (ix2 (0 : Fin 1) j)) a q := by
  unfold tileHidden Cert.Gnn.hidden
  show max (matmul dot_S512x256_S256x256_S512x256_1_0_0_1_n_n (some .fp32) v (shapeCast S256x256 w shapeCasts_S1x256x256_S256x256) (constant S512x256 .f32 0x00000000#32) (ix2 a q)
      + broadcastTo S512x256 (shapeCast S1x256 (shapeCast S256 b shapeCasts_S1x256_S256) shapeCasts_S256_S1x256) broadcasts_S1x256_S512x256 (ix2 a q))
      (Ideal.ofBits .f32 0x00000000#32) = _
  rw [linDot_apply, biasRow_apply, Ideal.ofBits_zero_f32]
  refine congrArg (fun s => max (s + b (ix2 (0 : Fin 1) q)) 0) (Finset.sum_congr rfl fun k _ => ?_)
  rw [shapeCast_1ab_ab_apply]

theorem tileMixed_apply (adj : Vec Ideal S512x512 .f32) (h : FVec Ideal S512x256 .f32) (a : Fin 512) (q : Fin 256) :
    tileMixed (F := Ideal) adj h (ix2 a q)
      = Cert.Gnn.mixed (fun a c : Fin 512 => adj (ix2 a c)) (fun a k => h (ix2 a k)) a q := by
  unfold tileMixed Cert.Gnn.mixed
  show h (ix2 a q) + matmul dot_S512x512_S512x256_S512x256_1_0_0_1_n_n (some .fp32) adj h (constant S512x256 .f32 0x00000000#32) (ix2 a q) = _
  rw [adjDot_apply]

/-- A column [512, 1] repeated across the tile's 256 columns, at an entry: the column's entry of that row. -/
theorem colBroadcast_apply (x : FVec Ideal S512x1 .f32) (a : Fin 512) (q : Fin 256) :
    broadcastTo S512x256 x broadcasts_S512x1_S512x256 (ix2 a q) = x (ix2 a (0 : Fin 1)) := by
  refine broadcastTo_apply x broadcasts_S512x1_S512x256 (ix2 a q) (ix2 a (0 : Fin 1)) fun ax => ?_
  match ax with
  | ⟨0, _⟩ => rfl
  | ⟨1, _⟩ => rfl

/-- The row sums [512] as a column [512, 1], at an entry. -/
theorem asColumn_apply (x : FVec Ideal S512 .f32) (a : Fin 512) :
    shapeCast S512x1 x shapeCasts_S512_S512x1 (ix2 a (0 : Fin 1)) = x (ix1 a) := by
  refine shapeCast_apply x shapeCasts_S512_S512x1 (ix2 a (0 : Fin 1)) (ix1 a) ?_
  rw [Shape.rowMajor_val_two, Shape.rowMajor_val_one]
  show a.val = a.val * 1 + 0
  omega

/-- The sum along a row of the tile. -/
theorem rowSum_apply (x : FVec Ideal S512x256 .f32) (a : Fin 512)
    (hφ : FKind.Formats .f32) (hacc : (0x00000000#32 : BitVec 32) = 0x00000000#32) :
    multiReduction .add [1] S512 x 0x00000000#32 reduces_S512x256_S512 hφ hacc (ix1 a) = ∑ k : Fin 256, x (ix2 a k) := by
  refine (Ideal.multiReduction_add_single x 0x00000000#32 reduces_S512x256_S512 hφ hacc (ix1 a)).trans ?_
  refine Finset.sum_congr rfl fun k _ => congrArg x (funext fun ax => Fin.ext ?_)
  match ax with
  | ⟨0, _⟩ => rfl
  | ⟨1, _⟩ => rfl

theorem tileNorm_apply (g : FVec Ideal S512x256 .f32) (a : Fin 512) (q : Fin 256) :
    tileNorm (F := Ideal) g (ix2 a q) = Cert.Gnn.normalized (fun k => g (ix2 a k)) q := by
  unfold tileNorm Cert.Gnn.normalized
  show Ideal.div (g (ix2 a q)) (broadcastTo S512x256 _ broadcasts_S512x1_S512x256 (ix2 a q)) = _
  rw [colBroadcast_apply]
  show Ideal.div (g (ix2 a q)) (max (Ideal.sqrt (shapeCast S512x1 _ shapeCasts_S512_S512x1 (ix2 a (0 : Fin 1)))) (Ideal.ofBits .f32 0x2B8CBCCC#32)) = _
  rw [asColumn_apply]
  exact congrArg (fun s => Ideal.div (g (ix2 a q)) (max (Ideal.sqrt s) (Ideal.ofBits .f32 0x2B8CBCCC#32))) (rowSum_apply (mulf g g) a _ _)

/-- One layer of the body on the tile is the specification's layer on the tile's 512 nodes. -/
theorem tileLayer_apply (adj : Vec Ideal S512x512 .f32) (v : FVec Ideal S512x256 .f32) (w : Vec Ideal S1x256x256 .f32)
    (b : Vec Ideal S1x256 .f32) (a : Fin 512) (q : Fin 256) :
    tileLayer (F := Ideal) adj v w b (ix2 a q)
      = Cert.Gnn.layerFn (fun a c : Fin 512 => adj (ix2 a c)) (fun a k => v (ix2 a k)) (fun j k => w (ix3 (0 : Fin 1) k j))
          (fun j => b (ix2 (0 : Fin 1) j)) a q := by
  unfold tileLayer Cert.Gnn.layerFn
  rw [tileNorm_apply]
  refine congrArg (fun g => Cert.Gnn.normalized g q) (funext fun k => ?_)
  rw [tileMixed_apply]
  refine congrArg (fun h => Cert.Gnn.mixed (fun a c : Fin 512 => adj (ix2 a c)) h a k) (funext fun a' => funext fun k' => ?_)
  exact tileHidden_apply v w b a' k'

end Cert.Gnn.Tile

end
-- ==== Proof.Layers3.lean ====
/-
  Three layers in a row (each with its own weights and bias, all with the same adjacency), and the locality law for the three
  together: on a set of nodes `κ` closed under the adjacency, three layers of the whole graph, read at the nodes of `κ`, are three
  layers of the subgraph on `κ` — each layer's output at `κ` only needs the previous layer's output at `κ`.
-/
import proofs.«145918_j75840532512927_2_alg».proof.Proof.LayerSpec

noncomputable section

namespace Cert.Gnn

/-- Three layers on the nodes `ι`. -/
def layers3 {ι : Type} [Fintype ι] (A : ι → ι → EReal) (v : ι → Fin 256 → EReal)
    (W0 : Fin 256 → Fin 256 → EReal) (b0 : Fin 256 → EReal) (W1 : Fin 256 → Fin 256 → EReal) (b1 : Fin 256 → EReal)
    (W2 : Fin 256 → Fin 256 → EReal) (b2 : Fin 256 → EReal) : ι → Fin 256 → EReal :=
  layerFn A (layerFn A (layerFn A v W0 b0) W1 b1) W2 b2

/-- Three layers of the whole graph at the nodes of `κ` are three layers of the subgraph on `κ`. -/
theorem layers3_restrict_rows {ι κ : Type} [Fintype ι] [Fintype κ] (e : κ → ι) (he : Function.Injective e)
    (A : ι → ι → EReal) (v : ι → Fin 256 → EReal)
    (W0 : Fin 256 → Fin 256 → EReal) (b0 : Fin 256 → EReal) (W1 : Fin 256 → Fin 256 → EReal) (b1 : Fin 256 → EReal)
    (W2 : Fin 256 → Fin 256 → EReal) (b2 : Fin 256 → EReal)
    (hA : ∀ (a : κ) (c : ι), c ∉ Set.range e → A (e a) c = 0) :
    (fun a => layers3 A v W0 b0 W1 b1 W2 b2 (e a))
      = layers3 (fun a c => A (e a) (e c)) (fun a => v (e a)) W0 b0 W1 b1 W2 b2 := by
  unfold layers3
  rw [layerFn_restrict_rows e he A _ W2 b2 hA, layerFn_restrict_rows e he A _ W1 b1 hA,
    layerFn_restrict_rows e he A v W0 b0 hA]

end Cert.Gnn

end
-- ==== Proof.KernelValue.lean ====
/-
  What the kernel's one region leaves in its output array [8192, 256].

  The grid has 16 points; point `t` holds the tile of nodes `512·t … 512·t + 511`: their rows of the region's input `v`, the
  DIAGONAL 512 × 512 tile of the adjacency at those nodes, and all the weights. It stores three layers of that tile
  (Proof/TileLayer.lean). So the block it writes back is three layers of the SUBGRAPH on the tile's nodes. When the
  adjacency has no entry between two nodes of different tiles, that is three layers of the whole graph, read at the
  tile's rows (Proof/Layers3.lean) — and the 16 blocks fill the array, which therefore ends holding three layers of the
  whole graph (`final`).

  The adjacency is only assumed to vanish where the two nodes lie in different blocks of 32 (`hA`); two nodes of
  different tiles of 512 lie in different blocks of 32, 512 being 16 · 32.
-/
import proofs.«145918_j75840532512927_2_alg».proof.Proof.Gen.KernelIdeal.Frame
import proofs.«145918_j75840532512927_2_alg».proof.Proof.TileLayer
import proofs.«145918_j75840532512927_2_alg».proof.Proof.Layers3
import Idealize.ShloMosaic.Lib.ValueIdx
import Idealize.ShloMosaic.Lib.ValueLayout
import Idealize.ShloMosaic.Lib.Pipeline.Value

set_option maxRecDepth 16384

noncomputable section

namespace Cert.Gnn.Kernel

open Idealize.ShloMosaic Idealize.ShloMosaic.ValueIdx Idealize.ShloMosaic.TcCoe Idealize.SL.Sem
open Cert.KernelIdeal Cert.KernelIdeal.Gen Cert.Gnn Cert.Gnn.Tile

variable (m : (ℓ : Loc nD τ sig) → Buf (Elt Ideal) ℓ)

/-! ## The tiles -/

/-- Row `a` of the tile of grid point `t` is node `512·t + a`. -/
def tileRow (t : Fin cfg0.N) (a : Fin 512) : Fin 8192 :=
  ⟨t.val * 512 + a.val, by have ht : t.val < grid0.N := t.isLt; have hN : grid0.N = 16 := N_0; have := a.isLt; show t.val * 512 + a.val < 8192; omega⟩

theorem tileRow_injective (t : Fin cfg0.N) : Function.Injective (tileRow t) := fun a b h => Fin.ext (by
  have := congrArg Fin.val h
  simp only [tileRow] at this
  omega)

/-- A node that is no row of tile `t` lies in another tile of 512. -/
theorem div_ne_of_not_mem_range (t : Fin cfg0.N) (c : Fin 8192) (hc : c ∉ Set.range (tileRow t)) : c.val / 512 ≠ t.val := by
  intro h
  apply hc
  have hc' := c.isLt
  refine ⟨⟨c.val - t.val * 512, by omega⟩, Fin.ext ?_⟩
  show t.val * 512 + (c.val - t.val * 512) = c.val
  omega

/-! ## The region's arrays, and what its output array ends holding -/

/-- Three layers of the whole graph, from the arrays as the region finds them: the input rows [8192, 256], the adjacency
    [8192, 8192], the transposed weights [3, 256, 256] (so `W_l[j][k]` is entry `(l, k, j)`) and the biases [3, 256]. -/
def wholeGraph (v0 : S8192x256.Idx → EReal) (A : S8192x8192.Idx → EReal) (wt : S3x256x256.Idx → EReal) (b : S3x256.Idx → EReal) :
    Fin 8192 → Fin 256 → EReal :=
  layers3 (fun r c : Fin 8192 => A (ix2 r c)) (fun r k => v0 (ix2 r k))
    (fun j k => wt (ix3 (0 : Fin 3) k j)) (fun j => b (ix2 (0 : Fin 3) j))
    (fun j k => wt (ix3 (1 : Fin 3) k j)) (fun j => b (ix2 (1 : Fin 3) j))
    (fun j k => wt (ix3 (2 : Fin 3) k j)) (fun j => b (ix2 (2 : Fin 3) j))

/-- The output array: entry `(r, j)` is three layers of the whole graph at node `r`, column `j`. -/
def G (c : Dev nD) : S8192x256.Idx → EReal := fun i =>
  wholeGraph (V m c main_v6) (V m c main_arg2) (V m c main_v7) (V m c main_arg5) ⟨(i 0).val, (i 0).isLt⟩ ⟨(i 1).val, (i 1).isLt⟩

/-! ## The printed index maps, decided once over the grid -/

theorem hz2 : (![0, 0] : Fin 2 → Nat) = fun _ => 0 := funext fun a => by fin_cases a <;> rfl

/-- Point `t` stages block row `t` of the input rows and of the output, the diagonal block `(t, t)` of the adjacency, and
    the whole weights and biases. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = t.val
    ∧ win0_2.index t (0 : Fin 3) = 0 ∧ win0_2.index t (1 : Fin 3) = 0 ∧ win0_2.index t (2 : Fin 3) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-! ## Each input window's block at a point, read at an entry -/

theorem iblk0_apply (c : Dev nD) (t : Fin cfg0.N) (a : Fin 512) (k : Fin 256) :
    (iblk m c 0 t : S512x256.Idx → EReal) (ix2 a k) = (V m c main_v6 : S8192x256.Idx → EReal) (ix2 (tileRow t a) k) := by
  obtain ⟨e0, e1, -⟩ := idx_facts t
  show (V m c main_v6 : S8192x256.Idx → EReal) (((cfg0.win 0).blk t).view.emb (ix2 a k)) = _
  refine congrArg (V m c main_v6 : S8192x256.Idx → EReal) (funext fun ax => Fin.ext ?_)
  match ax with
  | ⟨0, _⟩ => show win0_0.index t (0 : Fin 2) * 512 + 1 * a.val = t.val * 512 + a.val; omega
  | ⟨1, _⟩ => show win0_0.index t (1 : Fin 2) * 256 + 1 * k.val = k.val; omega

theorem iblk1_apply (c : Dev nD) (t : Fin cfg0.N) (a a' : Fin 512) :
    (iblk m c 1 t : S512x512.Idx → EReal) (ix2 a a') = (V m c main_arg2 : S8192x8192.Idx → EReal) (ix2 (tileRow t a) (tileRow t a')) := by
  obtain ⟨-, -, e0, e1, -⟩ := idx_facts t
  show (V m c main_arg2 : S8192x8192.Idx → EReal) (((cfg0.win 1).blk t).view.emb (ix2 a a')) = _
  refine congrArg (V m c main_arg2 : S8192x8192.Idx → EReal) (funext fun ax => Fin.ext ?_)
  match ax with
  | ⟨0, _⟩ => show win0_1.index t (0 : Fin 2) * 512 + 1 * a.val = t.val * 512 + a.val; omega
  | ⟨1, _⟩ => show win0_1.index t (1 : Fin 2) * 512 + 1 * a'.val = t.val * 512 + a'.val; omega

theorem iblk2_apply (c : Dev nD) (t : Fin cfg0.N) (l : Fin 3) (k j : Fin 256) :
    (iblk m c 2 t : S3x256x256.Idx → EReal) (ix3 l k j) = (V m c main_v7 : S3x256x256.Idx → EReal) (ix3 l k j) := by
  obtain ⟨-, -, -, -, e0, e1, e2, -⟩ := idx_facts t
  show (V m c main_v7 : S3x256x256.Idx → EReal) (((cfg0.win 2).blk t).view.emb (ix3 l k j)) = _
  refine congrArg (V m c main_v7 : S3x256x256.Idx → EReal) (funext fun ax => Fin.ext ?_)
  match ax with
  | ⟨0, _⟩ => show win0_2.index t (0 : Fin 3) * 3 + 1 * l.val = l.val; omega
  | ⟨1, _⟩ => show win0_2.index t (1 : Fin 3) * 256 + 1 * k.val = k.val; omega
  | ⟨2, _⟩ => show win0_2.index t (2 : Fin 3) * 256 + 1 * j.val = j.val; omega

theorem iblk3_apply (c : Dev nD) (t : Fin cfg0.N) (l : Fin 3) (j : Fin 256) :
    (iblk m c 3 t : S3x256.Idx → EReal) (ix2 l j) = (V m c main_arg5 : S3x256.Idx → EReal) (ix2 l j) := by
  obtain ⟨-, -, -, -, -, -, -, e0, e1, -⟩ := idx_facts t
  show (V m c main_arg5 : S3x256.Idx → EReal) (((cfg0.win 3).blk t).view.emb (ix2 l j)) = _
  refine congrArg (V m c main_arg5 : S3x256.Idx → EReal) (funext fun ax => Fin.ext ?_)
  match ax with
  | ⟨0, _⟩ => show win0_3.index t (0 : Fin 2) * 3 + 1 * l.val = l.val; omega
  | ⟨1, _⟩ => show win0_3.index t (1 : Fin 2) * 256 + 1 * j.val = j.val; omega

/-! ## The body's loads of one layer's weights and bias out of the staged arrays -/

theorem ldW0 (X : Vec Ideal S3x256x256 .f32) (k j : Fin 256) : View.ld X r0_2 (ix3 (0 : Fin 1) k j) = X (ix3 (0 : Fin 3) k j) :=
  congrArg X (funext fun ax => Fin.ext (by
    match ax with
    | ⟨0, _⟩ => rfl
    | ⟨1, _⟩ => show 0 + 1 * k.val = k.val; omega
    | ⟨2, _⟩ => show 0 + 1 * j.val = j.val; omega))
theorem ldW1 (X : Vec Ideal S3x256x256 .f32) (k j : Fin 256) : View.ld X r0_4 (ix3 (0 : Fin 1) k j) = X (ix3 (1 : Fin 3) k j) :=
  congrArg X (funext fun ax => Fin.ext (by
    match ax with
    | ⟨0, _⟩ => rfl
    | ⟨1, _⟩ => show 0 + 1 * k.val = k.val; omega
    | ⟨2, _⟩ => show 0 + 1 * j.val = j.val; omega))
theorem ldW2 (X : Vec Ideal S3x256x256 .f32) (k j : Fin 256) : View.ld X r0_6 (ix3 (0 : Fin 1) k j) = X (ix3 (2 : Fin 3) k j) :=
  congrArg X (funext fun ax => Fin.ext (by
    match ax with
    | ⟨0, _⟩ => rfl
    | ⟨1, _⟩ => show 0 + 1 * k.val = k.val; omega
    | ⟨2, _⟩ => show 0 + 1 * j.val = j.val; omega))
theorem ldB0 (X : Vec Ideal S3x256 .f32) (j : Fin 256) : View.ld X r0_3 (ix2 (0 : Fin 1) j) = X (ix2 (0 : Fin 3) j) :=
  congrArg X (funext fun ax => Fin.ext (by
    match ax with
    | ⟨0, _⟩ => rfl
    | ⟨1, _⟩ => show 0 + 1 * j.val = j.val; omega))
theorem ldB1 (X : Vec Ideal S3x256 .f32) (j : Fin 256) : View.ld X r0_5 (ix2 (0 : Fin 1) j) = X (ix2 (1 : Fin 3) j) :=
  congrArg X (funext fun ax => Fin.ext (by
    match ax with
    | ⟨0, _⟩ => rfl
    | ⟨1, _⟩ => show 0 + 1 * j.val = j.val; omega))
theorem ldB2 (X : Vec Ideal S3x256 .f32) (j : Fin 256) : View.ld X r0_7 (ix2 (0 : Fin 1) j) = X (ix2 (2 : Fin 3) j) :=
  congrArg X (funext fun ax => Fin.ext (by
    match ax with
    | ⟨0, _⟩ => rfl
    | ⟨1, _⟩ => show 0 + 1 * j.val = j.val; omega))

/-! ## What the body stores, at an entry: three layers of the tile's subgraph -/

/-- A layer only sees its weights and bias entry by entry. -/
theorem layerFn_congr_Wb {ι : Type} [Fintype ι] (A : ι → ι → EReal) (v : ι → Fin 256 → EReal)
    {W W' : Fin 256 → Fin 256 → EReal} {b b' : Fin 256 → EReal} (hW : ∀ j k, W j k = W' j k) (hb : ∀ j, b j = b' j) :
    layerFn A v W b = layerFn A v W' b' := by
  rw [show W = W' from funext fun j => funext fun k => hW j k, show b = b' from funext hb]

/-- Over any staged blocks: the stored payload at entry `(a, q)` is three layers on the 512 nodes of the tile. -/
theorem stored_apply (x0 : Vec Ideal S512x256 .f32) (x1 : Vec Ideal S512x512 .f32) (x2 : Vec Ideal S3x256x256 .f32)
    (x3 : Vec Ideal S3x256 .f32) (a : Fin 512) (q : Fin 256) :
    out0_4 (F := Ideal) x0 x1 x2 x3 (ix2 a q)
      = layers3 (fun a c : Fin 512 => x1 (ix2 a c)) (fun a k => x0 (ix2 a k))
          (fun j k => x2 (ix3 (0 : Fin 3) k j)) (fun j => x3 (ix2 (0 : Fin 3) j))
          (fun j k => x2 (ix3 (1 : Fin 3) k j)) (fun j => x3 (ix2 (1 : Fin 3) j))
          (fun j k => x2 (ix3 (2 : Fin 3) k j)) (fun j => x3 (ix2 (2 : Fin 3) j)) a q := by
  unfold out0_4
  rw [View.canon_unit_zero hz2]
  simp only [View.ld_unit_zero (S := S512x512) hz2, View.ld_unit_zero (S := S512x256) hz2]
  rw [Tile.stored_eq, shapeCast_self]
  unfold layers3
  have h1 : (fun a k => tileLayer (F := Ideal) x1 x0 (View.ld x2 r0_2) (View.ld x3 r0_3) (ix2 a k))
      = layerFn (fun a c : Fin 512 => x1 (ix2 a c)) (fun a k => x0 (ix2 a k))
          (fun j k => x2 (ix3 (0 : Fin 3) k j)) (fun j => x3 (ix2 (0 : Fin 3) j)) := by
    funext a k
    rw [tileLayer_apply]
    exact congrFun (congrFun (layerFn_congr_Wb _ _ (fun j k => ldW0 x2 k j) (fun j => ldB0 x3 j)) a) k
  have h2 : (fun a k => tileLayer (F := Ideal) x1 (tileLayer x1 x0 (View.ld x2 r0_2) (View.ld x3 r0_3)) (View.ld x2 r0_4) (View.ld x3 r0_5) (ix2 a k))
      = layerFn (fun a c : Fin 512 => x1 (ix2 a c))
          (layerFn (fun a c : Fin 512 => x1 (ix2 a c)) (fun a k => x0 (ix2 a k))
            (fun j k => x2 (ix3 (0 : Fin 3) k j)) (fun j => x3 (ix2 (0 : Fin 3) j)))
          (fun j k => x2 (ix3 (1 : Fin 3) k j)) (fun j => x3 (ix2 (1 : Fin 3) j)) := by
    funext a k
    rw [tileLayer_apply, h1]
    exact congrFun (congrFun (layerFn_congr_Wb _ _ (fun j k => ldW1 x2 k j) (fun j => ldB1 x3 j)) a) k
  rw [tileLayer_apply, h2]
  exact congrFun (congrFun (layerFn_congr_Wb _ _ (fun j k => ldW2 x2 k j) (fun j => ldB2 x3 j)) a) q

end Cert.Gnn.Kernel

end
-- ==== Proof.HostParts.lean ====
/-
  The two stretches of host operations that the kernel's program and the reference share, each as ONE function.

  `nodeRows`: the embedding rows of the nodes, `emb[subgraph]` — the index made non-negative (an index below zero has the
  table's length added), then the gather of whole rows.
  `readout`: what both programs do with the node rows `u` after the three layers — the sum of the rows of each molecule
  (a scatter-add of `u` by `segment_ids` into zeros), two dense layers with relu, and the final projection to one number
  per molecule.

  Both programs apply these same operations, so the proof never opens them: the two results are `readout` of two arrays
  `u`, and it is enough that the arrays are equal.
-/
import proofs.«145918_j75840532512927_2_alg».proof.ReferenceIdeal

noncomputable section

namespace Cert.Gnn.Host

open Idealize.ShloMosaic Cert.ReferenceIdeal

variable [Cert.ReferenceIdeal.Facts]
open Cert.ReferenceIdeal.Facts₀ Cert.ReferenceIdeal.Facts

/-- `emb[subgraph]`: the rows of the embedding table the nodes name. -/
def nodeRows {F : FTy → Type} [FloatOps F] (x0 : (⟨S8192, .i32⟩ : BufTy).Contents (Elt F)) (x3 : (⟨S10000x256, .f32⟩ : BufTy).Contents (Elt F)) : (⟨S8192x256, .f32⟩ : BufTy).Contents (Elt F) :=
  have t_main_c : (⟨S_, .i32⟩ : BufTy).Contents (Elt F) := constantI S_ 32 0#32
  have t_main_v0 : (⟨S8192, .i32⟩ : BufTy).Contents (Elt F) := broadcastInDim S8192 ![] bcast_S_S8192 t_main_c
  have t_main_v1 : (⟨S8192, .i1⟩ : BufTy).Contents (Elt F) := cmpi .slt (x0) t_main_v0
  have t_main_c_0 : (⟨S_, .i32⟩ : BufTy).Contents (Elt F) := constantI S_ 32 10000#32
  have t_main_v2 : (⟨S8192, .i32⟩ : BufTy).Contents (Elt F) := broadcastInDim S8192 ![] bcast_S_S8192 t_main_c_0
  have t_main_v3 : (⟨S8192, .i32⟩ : BufTy).Contents (Elt F) := addi (x0) t_main_v2
  have t_main_v4 : (⟨S8192, .i32⟩ : BufTy).Contents (Elt F) := select t_main_v1 t_main_v3 (x0)
  have t_main_v5 : (⟨S8192x1, .i32⟩ : BufTy).Contents (Elt F) := broadcastInDim S8192x1 ![0] bcast_S8192_S8192x1_0 t_main_v4
  have t_main_v6 : (⟨S8192x256, .f32⟩ : BufTy).Contents (Elt F) := Host.gather gather_S10000x256_S8192x1_S8192x256_1_0_n_n_0_1_1256 (x3) t_main_v5
  t_main_v6

/-- Pooling by molecule, the two dense layers and the projection, of the node rows `u`. -/
def readout {F : FTy → Type} [FloatOps F] (u : (⟨S8192x256, .f32⟩ : BufTy).Contents (Elt F)) (x1 : (⟨S8192, .i32⟩ : BufTy).Contents (Elt F)) (x6 : (⟨S2x256x256, .f32⟩ : BufTy).Contents (Elt F))
    (x7 : (⟨S2x256, .f32⟩ : BufTy).Contents (Elt F)) (x8 : (⟨S1x256, .f32⟩ : BufTy).Contents (Elt F)) (x9 : (⟨S1, .f32⟩ : BufTy).Contents (Elt F)) : (⟨S256x1, .f32⟩ : BufTy).Contents (Elt F) :=
  have t_main_cst_3 : (⟨S_, .f32⟩ : BufTy).Contents (Elt F) := constant S_ .f32 0x00000000#32
  have t_main_v58 : (⟨S256x256, .f32⟩ : BufTy).Contents (Elt F) := broadcastInDim S256x256 ![] bcast_S_S256x256 t_main_cst_3
  have t_main_v59 : (⟨S8192x1, .i32⟩ : BufTy).Contents (Elt F) := broadcastInDim S8192x1 ![0] bcast_S8192_S8192x1_0 (x1)
  have t_main_v60 : (⟨S256x256, .f32⟩ : BufTy).Contents (Elt F) := Host.scatterAdd scatter_S256x256_S8192x1_S8192x256_1_0_0_1 t_main_v58 t_main_v59 u
  have t_main_v61 : (⟨S1x256x256, .f32⟩ : BufTy).Contents (Elt F) := extractStridedSlice S1x256x256 ![0, 0, 0] (x6) slices_S2x256x256_S1x256x256_0_0_0
  have t_main_v62 : (⟨S256x256, .f32⟩ : BufTy).Contents (Elt F) := shapeCast _ t_main_v61 shapeCasts_S1x256x256_S256x256
  have t_main_v63 : (⟨S256x256, .f32⟩ : BufTy).Contents (Elt F) := transpose S256x256 [1, 0] t_main_v62 transposes_S256x256_S256x256_1_0
  have t_main_v64 : (⟨S256x256, .f32⟩ : BufTy).Contents (Elt F) := Host.dotGeneral dot_S256x256_S256x256_S256x256_1_0_0_1_n_n none t_main_v60 t_main_v63
  have t_main_v65 : (⟨S1x256, .f32⟩ : BufTy).Contents (Elt F) := extractStridedSlice S1x256 ![0, 0] (x7) slices_S2x256_S1x256_0_0
  have t_main_v66 : (⟨S256, .f32⟩ : BufTy).Contents (Elt F) := shapeCast _ t_main_v65 shapeCasts_S1x256_S256
  have t_main_v67 : (⟨S1x256, .f32⟩ : BufTy).Contents (Elt F) := broadcastInDim S1x256 ![1] bcast_S256_S1x256_1 t_main_v66
  have t_main_v68 : (⟨S256x256, .f32⟩ : BufTy).Contents (Elt F) := broadcastInDim S256x256 ![0, 1] bcast_S1x256_S256x256_0_1 t_main_v67
  have t_main_v69 : (⟨S256x256, .f32⟩ : BufTy).Contents (Elt F) := addf t_main_v64 t_main_v68
  have t_main_call6_cst : (⟨S_, .f32⟩ : BufTy).Contents (Elt F) := constant S_ .f32 0x00000000#32
  have t_main_call6_v0 : (⟨S256x256, .f32⟩ : BufTy).Contents (Elt F) := broadcastInDim S256x256 ![] bcast_S_S256x256 t_main_call6_cst
  have t_main_v70 : (⟨S256x256, .f32⟩ : BufTy).Contents (Elt F) := maximumf t_main_v69 t_main_call6_v0
  have t_main_v71 : (⟨S1x256x256, .f32⟩ : BufTy).Contents (Elt F) := extractStridedSlice S1x256x256 ![1, 0, 0] (x6) slices_S2x256x256_S1x256x256_1_0_0
  have t_main_v72 : (⟨S256x256, .f32⟩ : BufTy).Contents (Elt F) := shapeCast _ t_main_v71 shapeCasts_S1x256x256_S256x256
  have t_main_v73 : (⟨S256x256, .f32⟩ : BufTy).Contents (Elt F) := transpose S256x256 [1, 0] t_main_v72 transposes_S256x256_S256x256_1_0
  have t_main_v74 : (⟨S256x256, .f32⟩ : BufTy).Contents (Elt F) := Host.dotGeneral dot_S256x256_S256x256_S256x256_1_0_0_1_n_n none t_main_v70 t_main_v73
  have t_main_v75 : (⟨S1x256, .f32⟩ : BufTy).Contents (Elt F) := extractStridedSlice S1x256 ![1, 0] (x7) slices_S2x256_S1x256_1_0
  have t_main_v76 : (⟨S256, .f32⟩ : BufTy).Contents (Elt F) := shapeCast _ t_main_v75 shapeCasts_S1x256_S256
  have t_main_v77 : (⟨S1x256, .f32⟩ : BufTy).Contents (Elt F) := broadcastInDim S1x256 ![1] bcast_S256_S1x256_1 t_main_v76
  have t_main_v78 : (⟨S256x256, .f32⟩ : BufTy).Contents (Elt F) := broadcastInDim S256x256 ![0, 1] bcast_S1x256_S256x256_0_1 t_main_v77
  have t_main_v79 : (⟨S256x256, .f32⟩ : BufTy).Contents (Elt F) := addf t_main_v74 t_main_v78
  have t_main_call7_cst : (⟨S_, .f32⟩ : BufTy).Contents (Elt F) := constant S_ .f32 0x00000000#32
  have t_main_call7_v0 : (⟨S256x256, .f32⟩ : BufTy).Contents (Elt F) := broadcastInDim S256x256 ![] bcast_S_S256x256 t_main_call7_cst
  have t_main_v80 : (⟨S256x256, .f32⟩ : BufTy).Contents (Elt F) := maximumf t_main_v79 t_main_call7_v0
  have t_main_v81 : (⟨S256x1, .f32⟩ : BufTy).Contents (Elt F) := transpose S256x1 [1, 0] (x8) transposes_S1x256_S256x1_1_0
  have t_main_v82 : (⟨S256x1, .f32⟩ : BufTy).Contents (Elt F) := Host.dotGeneral dot_S256x256_S256x1_S256x1_1_0_0_1_n_n none t_main_v80 t_main_v81
  have t_main_v83 : (⟨S1x1, .f32⟩ : BufTy).Contents (Elt F) := broadcastInDim S1x1 ![1] bcast_S1_S1x1_1 (x9)
  have t_main_v84 : (⟨S256x1, .f32⟩ : BufTy).Contents (Elt F) := broadcastInDim S256x1 ![0, 1] bcast_S1x1_S256x1_0_1 t_main_v83
  have t_main_v85 : (⟨S256x1, .f32⟩ : BufTy).Contents (Elt F) := addf t_main_v82 t_main_v84
  t_main_v85

end Cert.Gnn.Host

end
-- ==== Proof.KernelRun.lean ====
/-
  The kernel's whole program, run and read.

  Before the region the host gathers the nodes' embedding rows (`Host.nodeRows`) and transposes the layers' weights; the region
  leaves three layers of the whole graph in its output array (`final`, from Proof/KernelValue.lean: what each grid point
  writes back is block `t` of that array, and the 16 blocks cover it) PROVIDED the adjacency vanishes between nodes of
  different blocks of 32; after the region the host pools, applies the two dense layers and projects (`Host.readout`).
  `run` states the result buffer accordingly, and the arguments unchanged.
-/
import proofs.«145918_j75840532512927_2_alg».proof.Proof.KernelValue
import proofs.«145918_j75840532512927_2_alg».proof.Proof.HostParts
import proofs.«145918_j75840532512927_2_alg».proof.Proof.Gen.ReferenceIdeal
import Idealize.ShloMosaic.Lib.StableHlo.Run
import Idealize.ShloMosaic.PureOps.Ideal

set_option maxRecDepth 16384

noncomputable section

namespace Cert.Gnn.Kernel

open Idealize.ShloMosaic Idealize.ShloMosaic.ValueIdx Idealize.ShloMosaic.TcCoe Idealize.SL.Sem Idealize.ShloMosaic.StableHlo
open Cert.KernelIdeal Cert.KernelIdeal.Gen Cert.Gnn Cert.Gnn.Tile

variable (m : (ℓ : Loc nD τ sig) → Buf (Elt Ideal) ℓ) (ρ : Dev nD → PrngReg)

/-- The adjacency has no entry between two nodes of different blocks of 32. -/
def BlockDiag (c : Dev nD) : Prop :=
  ∀ i : S8192x8192.Idx, (i 0).val / 32 ≠ (i 1).val / 32 → (m ((c : Thread nD τ).loc main_arg2) : S8192x8192.Idx → EReal) i = (0 : EReal)

/-! ## What point `t` writes back -/

/-- Point `t`'s block is block `t` of the whole-graph array `G`: three layers of the tile's subgraph are three layers of the
    whole graph at the tile's rows, the adjacency having no entry out of the tile. -/
theorem flushed_eq (c : Dev nD) (hA : BlockDiag m c) (t : Fin cfg0.N) :
    (dats m 0 c).flushed 4 t = ((cfg0.win 4).blk t).view.read (Elt Ideal) (G m c) := by
  obtain ⟨-, -, -, -, -, -, -, -, -, e0, e1⟩ := idx_facts t
  show (cfg0.win 4).cut (grid0.coords t) ((dats m 0 c).after 4 t) = _
  rw [after0_4]
  funext y
  obtain ⟨a, q, rfl⟩ : ∃ (a : Fin 512) (q : Fin 256), y = ix2 a q := ⟨y 0, y 1, eq_ix2 y⟩
  show out0_4 (F := Ideal) (iblk m c 0 t) (iblk m c 1 t) (iblk m c 2 t) (iblk m c 3 t) (ix2 a q)
    = G m c (((cfg0.win 4).blk t).view.emb (ix2 a q))
  rw [stored_apply]
  have hi : G m c (((cfg0.win 4).blk t).view.emb (ix2 a q))
      = wholeGraph (V m c main_v6) (V m c main_arg2) (V m c main_v7) (V m c main_arg5) (tileRow t a) q := by
    unfold G
    refine congrArg₂ (wholeGraph (V m c main_v6) (V m c main_arg2) (V m c main_v7) (V m c main_arg5)) (Fin.ext ?_) (Fin.ext ?_)
    · show win0_4.index t (0 : Fin 2) * 512 + 1 * a.val = t.val * 512 + a.val; omega
    · show win0_4.index t (1 : Fin 2) * 256 + 1 * q.val = q.val; omega
  rw [hi]
  unfold wholeGraph
  have hout : ∀ (a : Fin 512) (c' : Fin 8192), c' ∉ Set.range (tileRow t) →
      (V m c main_arg2 : S8192x8192.Idx → EReal) (ix2 (tileRow t a) c') = (0 : EReal) := by
    intro a c' hc'
    have hne := div_ne_of_not_mem_range t c' hc'
    rw [V_main_arg2]
    refine hA (ix2 (tileRow t a) c') ?_
    show (t.val * 512 + a.val) / 32 ≠ c'.val / 32
    have := a.isLt
    omega
  have loc := congrFun (congrFun (layers3_restrict_rows (tileRow t) (tileRow_injective t)
    (fun r c' : Fin 8192 => (V m c main_arg2 : S8192x8192.Idx → EReal) (ix2 r c'))
    (fun r k => (V m c main_v6 : S8192x256.Idx → EReal) (ix2 r k))
    (fun j k => (V m c main_v7 : S3x256x256.Idx → EReal) (ix3 (0 : Fin 3) k j)) (fun j => (V m c main_arg5 : S3x256.Idx → EReal) (ix2 (0 : Fin 3) j))
    (fun j k => (V m c main_v7 : S3x256x256.Idx → EReal) (ix3 (1 : Fin 3) k j)) (fun j => (V m c main_arg5 : S3x256.Idx → EReal) (ix2 (1 : Fin 3) j))
    (fun j k => (V m c main_v7 : S3x256x256.Idx → EReal) (ix3 (2 : Fin 3) k j)) (fun j => (V m c main_arg5 : S3x256.Idx → EReal) (ix2 (2 : Fin 3) j))
    hout) a) q
  refine Eq.trans ?_ loc.symm
  simp only [iblk0_apply, iblk1_apply, iblk2_apply, iblk3_apply]

/-! ## The output array after the region -/

/-- The 16 blocks cover the array: it ends holding three layers of the whole graph. -/
theorem final (c : Dev nD) (hA : BlockDiag m c) : (dats m 0 c).arrAt 4 cfg0.N = G m c :=
  (dats m 0 c).arrAt_eq_of_cover 4 (G m c) (fun t _ => flushed_eq m c hA t) fun i => by
    have hi0 : (i 0).val < 8192 := (i 0).isLt
    have hi1 : (i 1).val < 256 := (i 1).isLt
    have hN : grid0.N = 16 := N_0
    have hlt : (i 0).val / 512 < grid0.N := by omega
    obtain ⟨-, -, -, -, -, -, -, -, -, e0, e1⟩ := idx_facts (⟨(i 0).val / 512, hlt⟩ : Fin cfg0.N)
    refine ⟨⟨(i 0).val / 512, hlt⟩, flush0_4 _, ?_⟩
    show i ∈ ((View.whole main_v8).slice (win0_4.rect ⟨(i 0).val / 512, hlt⟩)).set
    rw [View.set_slice_whole, Rect.mem_set_unit]
    intro ax
    match ax with
    | ⟨0, _⟩ =>
      show win0_4.index ⟨(i 0).val / 512, hlt⟩ (0 : Fin 2) * 512 ≤ (i 0).val ∧ (i 0).val < win0_4.index ⟨(i 0).val / 512, hlt⟩ (0 : Fin 2) * 512 + 512
      have e0' : win0_4.index ⟨(i 0).val / 512, hlt⟩ (0 : Fin 2) = (i 0).val / 512 := e0
      omega
    | ⟨1, _⟩ =>
      show win0_4.index ⟨(i 0).val / 512, hlt⟩ (1 : Fin 2) * 256 ≤ (i 1).val ∧ (i 1).val < win0_4.index ⟨(i 0).val / 512, hlt⟩ (1 : Fin 2) * 256 + 256
      omega

/-! ## The host operations before and after the region -/

/-- The region's input rows are the nodes' embedding rows. -/
theorem V_rows (c : Dev nD) :
    V m c main_v6 = Host.nodeRows (F := Ideal) (m ((c : Thread nD τ).loc main_arg0)) (m ((c : Thread nD τ).loc main_arg3)) := by
  show StableHlo.after hostOps0 (fun b => m (c, b)) (Proc.devRef .tc main_v6) = _
  after_results
  rfl

/-- The region's weights are the layers' weights with the last two axes exchanged. -/
theorem V_weights (c : Dev nD) (l : Fin 3) (k j : Fin 256) :
    (V m c main_v7 : S3x256x256.Idx → EReal) (ix3 l k j) = (m ((c : Thread nD τ).loc main_arg4) : S3x256x256.Idx → EReal) (ix3 l j k) := by
  have e : (V m c main_v7 : S3x256x256.Idx → EReal)
      = transpose S3x256x256 [0, 2, 1] (m ((c : Thread nD τ).loc main_arg4) : S3x256x256.Idx → EReal) Facts₀.transposes_S3x256x256_S3x256x256_0_2_1 := by
    show StableHlo.after hostOps0 (fun b => m (c, b)) (Proc.devRef .tc main_v7) = _
    after_results
  rw [e]
  exact transpose_ix3_021_apply _ _ l k j

/-- The result buffer after the host operations that follow the region: the readout of the region's output array. -/
theorem tail_eq (c : Dev nD) :
    Pipeline.afterTail₀ cfgs (dats m) 0 (V0 m) [hostOps1, hostOps1_1, hostOps1_2, hostOps1_3, hostOps1_4] c main_v36
      = Host.readout (F := Ideal) ((dats m 0 c).arrAt 4 cfg0.N) (m ((c : Thread nD τ).loc main_arg1)) (m ((c : Thread nD τ).loc main_arg6))
          (m ((c : Thread nD τ).loc main_arg7)) (m ((c : Thread nD τ).loc main_arg8)) (m ((c : Thread nD τ).loc main_arg9)) := by
  have eOut : Pipeline.withArrays (cfgs 0).spec c (V0 m c) (fun w => (dats m 0 c).arrAt w (cfgs 0).N) (Proc.devRef .tc main_v8)
      = (dats m 0 c).arrAt 4 cfg0.N := Pipeline.withArrays_arr spec0 launch0.win.arr_inj c _ _ 4
  have e1 : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have e6 : Pipeline.withArrays (cfgs 0).spec c (V0 m c) (fun w => (dats m 0 c).arrAt w (cfgs 0).N) (Proc.devRef .tc main_arg6)
      = m ((c : Thread nD τ).loc main_arg6) :=
    (Pipeline.withArrays_of_ne _ c (V0 m c) _ main_arg6 (by exact (by decide : ∀ w, Pipeline.arrRef spec0 w ≠ main_arg6))).trans (V_main_arg6 m c)
  have e7 : Pipeline.withArrays (cfgs 0).spec c (V0 m c) (fun w => (dats m 0 c).arrAt w (cfgs 0).N) (Proc.devRef .tc main_arg7)
      = m ((c : Thread nD τ).loc main_arg7) :=
    (Pipeline.withArrays_of_ne _ c (V0 m c) _ main_arg7 (by exact (by decide : ∀ w, Pipeline.arrRef spec0 w ≠ main_arg7))).trans (V_main_arg7 m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne _ c (V0 m c) _ main_arg8 (by exact (by decide : ∀ w, Pipeline.arrRef spec0 w ≠ main_arg8))).trans (V_main_arg8 m c)
  have e9 : Pipeline.withArrays (cfgs 0).spec c (V0 m c) (fun w => (dats m 0 c).arrAt w (cfgs 0).N) (Proc.devRef .tc main_arg9)
      = m ((c : Thread nD τ).loc main_arg9) :=
    (Pipeline.withArrays_of_ne _ c (V0 m c) _ main_arg9 (by exact (by decide : ∀ w, Pipeline.arrRef spec0 w ≠ main_arg9))).trans (V_main_arg9 m c)
  unfold Pipeline.afterTail₀
  simp only [hostOps1, hostOps1_1, hostOps1_2, hostOps1_3, hostOps1_4, List.flatten_cons, List.flatten_nil, List.append_nil,
    List.cons_append, List.nil_append]
  after_results_simp
  rw [eOut, e1, e6, e7, e8, e9]
  rfl

/-! ## The run -/

set_option backward.isDefEq.respectTransparency.types false in
/-- Every weakly fair execution of the kernel's program terminates with the result buffer at the readout of three layers of
    the whole graph, and the arguments unchanged — when the adjacency is block-diagonal. -/
theorem run (hA : ∀ c, BlockDiag m c) :
    θ_run defs (onTc (τ := τ) (main (F := Ideal))) ⟨m, fun _ => 0, ρ⟩ fun r => ∀ c : Dev nD,
      r.2.mem ((c.tc : Thread nD τ).loc main_v36)
        = Host.readout (F := Ideal) (G m c) (m ((c : Thread nD τ).loc main_arg1)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v36 (Pipeline.mem_restRefs_of main_v36 (by decide) (by decide))).trans ((tail_eq m c).trans (by rw [final m c (hA c)])),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 3).trans (((dats m 0 c).arrAt_in 3 rfl _).trans ((A_eq m c 3).trans (V_main_arg5 m c))),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.Gnn.Kernel

end
-- ==== Proof.RefLayers.lean ====
/-
  The reference program's three graph-network layers, read index by index.

  Each layer of the reference is the same seventeen operations: a slice of the stacked weights, reshaped and transposed;
  the product of the node rows with it; a slice of the stacked biases broadcast over the rows and added; the maximum
  with zero; the product of the adjacency matrix with the result, added to the result; the sum of squares along each row,
  its square root, the maximum with the floor, broadcast back along the row; and the quotient. Over the extended reals
  every one of these is exact, so at an index `(r, j)` the layer's result is

    g[r, j] / max (√(Σ_k g[r, k]²)) ε,   g[r, j] = h[r, j] + Σ_c A[r, c] · h[c, j],   h[r, j] = max (Σ_k v[r, k] · W[j, k] + b[j]) 0,

  which is `Cert.Gnn.layerFn A v W b r j` with `A` the adjacency matrix, `v` the layer's input rows, `W = w[l]` and
  `b = b[l]` the `l`-th slices. The proofs only push an index through the operations: a sum is never expanded, its
  summands are rewritten under the binder.
-/
import proofs.«145918_j75840532512927_2_alg».proof.Proof.RefRead
import proofs.«145918_j75840532512927_2_alg».proof.Proof.LayerSpec

noncomputable section

namespace Cert.Gnn.Ref

open Idealize.ShloMosaic Idealize.ShloMosaic.ValueIdx Cert.ReferenceIdeal

variable (x0 : (⟨S8192, .i32⟩ : BufTy).Contents (Elt Ideal))
  (x2 : (⟨S8192x8192, .f32⟩ : BufTy).Contents (Elt Ideal))
  (x3 : (⟨S10000x256, .f32⟩ : BufTy).Contents (Elt Ideal))
  (x4 : (⟨S3x256x256, .f32⟩ : BufTy).Contents (Elt Ideal))
  (x5 : (⟨S3x256, .f32⟩ : BufTy).Contents (Elt Ideal))

/-! ## The first layer -/

/-- The transposed first slice of the weights at `(k, j)` is `w[0][j][k]`: the reshape's row-major position
    `j · 256 + k` splits back into `j` and `k`. -/
theorem weight1 (k j : Fin 256) :
    ReadP.val_main_v9 (F := Ideal) x4 (ix2 k j) = x4 (ix3 (0 : Fin 3) j k) := by
  rw [ReadP.val_main_v9_apply, ReadP.val_main_v8_apply, ReadP.val_main_v7_apply]
  refine congrArg x4 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

/-- The first slice of the biases, broadcast over the rows, at `(r, j)` is `b[0][j]`. -/
theorem bias1 (r : Fin 8192) (j : Fin 256) :
    ReadP.val_main_v14 (F := Ideal) x5 (ix2 r j) = x5 (ix2 (0 : Fin 3) j) := by
  rw [ReadP.val_main_v14_apply, ReadP.val_main_v13_apply, ReadP.val_main_v12_apply, ReadP.val_main_v11_apply]
  refine congrArg x5 (funext fun a => Fin.ext ?_)
  match a with
  | ⟨0, _⟩ => rfl
  | ⟨1, _⟩ => show j.val % 256 = j.val; exact Nat.mod_eq_of_lt j.isLt

/-- The linear map of a node's row and the maximum with zero. -/
theorem hidden1 (r : Fin 8192) (j : Fin 256) :
    ReadP.val_main_v16 (F := Ideal) x0 x3 x4 x5 (ix2 r j) = hidden (fun r k => ReadP.val_main_v6 (F := Ideal) x0 x3 (ix2 r k)) (fun j k => x4 (ix3 (0 : Fin 3) j k)) (fun j => x5 (ix2 (0 : Fin 3) j)) r j := by
  rw [ReadP.val_main_v16_apply, ReadP.val_main_v15_apply, ReadP.val_main_v10_apply, ReadP.val_main_call0_v0_apply, ReadP.val_main_call0_cst_apply, bias1]
  simp only [Ideal.maximumf_def, Ideal.addf_def, Ideal.ofBits_def, Ideal.ofBits_zero_f32]
  unfold hidden
  refine congrArg (fun s => max (s + x5 (ix2 (0 : Fin 3) j)) 0) (Finset.sum_congr rfl fun k _ => ?_)
  have el : ReadP.lidx_main_v10 (ix2 r j) k = ix2 r k := funext fun a => Fin.ext (by match a with | ⟨0, _⟩ => rfl | ⟨1, _⟩ => rfl)
  have er : ReadP.ridx_main_v10 (ix2 r j) k = ix2 k j := funext fun a => Fin.ext (by match a with | ⟨0, _⟩ => rfl | ⟨1, _⟩ => rfl)
  rw [el, er, weight1]

/-- A node's own row plus the adjacency-weighted sum of all rows. -/
theorem mixed1 (r : Fin 8192) (j : Fin 256) :
    ReadP.val_main_v18 (F := Ideal) x0 x2 x3 x4 x5 (ix2 r j) = mixed (fun r c : Fin 8192 => x2 (ix2 r c)) (hidden (fun r k => ReadP.val_main_v6 (F := Ideal) x0 x3 (ix2 r k)) (fun j k => x4 (ix3 (0 : Fin 3) j k)) (fun j => x5 (ix2 (0 : Fin 3) j))) r j := by
  rw [ReadP.val_main_v18_apply, ReadP.val_main_v17_apply, hidden1]
  simp only [Ideal.addf_def]
  unfold mixed
  refine congrArg (_ + ·) (Finset.sum_congr rfl fun c _ => ?_)
  have el : ReadP.lidx_main_v17 (ix2 r j) c = ix2 r c := funext fun a => Fin.ext (by match a with | ⟨0, _⟩ => rfl | ⟨1, _⟩ => rfl)
  have er : ReadP.ridx_main_v17 (ix2 r j) c = ix2 c j := funext fun a => Fin.ext (by match a with | ⟨0, _⟩ => rfl | ⟨1, _⟩ => rfl)
  rw [el, er, hidden1]

/-- The row divided by its length, the length floored. -/
theorem layer1_at (r : Fin 8192) (j : Fin 256) :
    ReadP.val_main_v23 (F := Ideal) x0 x2 x3 x4 x5 (ix2 r j) = layerFn (fun r c : Fin 8192 => x2 (ix2 r c)) (fun r k => ReadP.val_main_v6 (F := Ideal) x0 x3 (ix2 r k)) (fun j k => x4 (ix3 (0 : Fin 3) j k)) (fun j => x5 (ix2 (0 : Fin 3) j)) r j := by
  rw [ReadP.val_main_v23_apply, ReadP.val_main_v22_apply, ReadP.val_main_v21_apply, ReadP.val_main_v20_apply, ReadP.val_main_cst_apply, ReadP.val_main_v19_apply,
    ReadP.val_main_call1_v2_apply, ReadP.val_main_call1_v1_apply, ReadP.val_main_call1_cst_apply, mixed1]
  simp only [Ideal.hostDivf_def, Ideal.maximumf_def, Ideal.hostUnary_sqrt_def, Ideal.ofBits_def, Ideal.ofBits_zero_f32, zero_add]
  unfold layerFn normalized
  have hs : (∑ k : Fin 256, ReadP.val_main_call1_v0 (F := Ideal) x0 x2 x3 x4 x5
        (ReadP.idx_main_call1_v1 (ReadP.idx_main_call1_v2 (ReadP.idx_main_v22 (ix2 r j))) k))
      = ∑ k : Fin 256, mixed (fun r c : Fin 8192 => x2 (ix2 r c)) (hidden (fun r k => ReadP.val_main_v6 (F := Ideal) x0 x3 (ix2 r k)) (fun j k => x4 (ix3 (0 : Fin 3) j k)) (fun j => x5 (ix2 (0 : Fin 3) j))) r k * mixed (fun r c : Fin 8192 => x2 (ix2 r c)) (hidden (fun r k => ReadP.val_main_v6 (F := Ideal) x0 x3 (ix2 r k)) (fun j k => x4 (ix3 (0 : Fin 3) j k)) (fun j => x5 (ix2 (0 : Fin 3) j))) r k :=
    Finset.sum_congr rfl fun k _ => by
      have e : ReadP.idx_main_call1_v1 (ReadP.idx_main_call1_v2 (ReadP.idx_main_v22 (ix2 r j))) k = ix2 r k :=
        funext fun a => Fin.ext (by match a with | ⟨0, _⟩ => rfl | ⟨1, _⟩ => rfl)
      rw [ReadP.val_main_call1_v0_apply, e, mixed1]
      rfl
  rw [hs]

/-- The first layer of the reference is the layer function of its input rows. -/
theorem layer1 (i : S8192x256.Idx) :
    ReadP.val_main_v23 (F := Ideal) x0 x2 x3 x4 x5 i = layerFn (fun r c : Fin 8192 => x2 (ix2 r c)) (fun r k => ReadP.val_main_v6 (F := Ideal) x0 x3 (ix2 r k)) (fun j k => x4 (ix3 (0 : Fin 3) j k)) (fun j => x5 (ix2 (0 : Fin 3) j)) (i 0) (i 1) :=
  (congrArg (ReadP.val_main_v23 (F := Ideal) x0 x2 x3 x4 x5) (eq_ix2 i)).trans (layer1_at x0 x2 x3 x4 x5 (i 0) (i 1))

/-! ## The second layer -/

/-- The transposed second slice of the weights at `(k, j)` is `w[1][j][k]`: the reshape's row-major position
    `j · 256 + k` splits back into `j` and `k`. -/
theorem weight2 (k j : Fin 256) :
    ReadP.val_main_v26 (F := Ideal) x4 (ix2 k j) = x4 (ix3 (1 : Fin 3) j k) := by
  rw [ReadP.val_main_v26_apply, ReadP.val_main_v25_apply, ReadP.val_main_v24_apply]
  refine congrArg x4 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

/-- The second slice of the biases, broadcast over the rows, at `(r, j)` is `b[1][j]`. -/
theorem bias2 (r : Fin 8192) (j : Fin 256) :
    ReadP.val_main_v31 (F := Ideal) x5 (ix2 r j) = x5 (ix2 (1 : Fin 3) j) := by
  rw [ReadP.val_main_v31_apply, ReadP.val_main_v30_apply, ReadP.val_main_v29_apply, ReadP.val_main_v28_apply]
  refine congrArg x5 (funext fun a => Fin.ext ?_)
  match a with
  | ⟨0, _⟩ => rfl
  | ⟨1, _⟩ => show j.val % 256 = j.val; exact Nat.mod_eq_of_lt j.isLt

/-- The linear map of a node's row and the maximum with zero. -/
theorem hidden2 (r : Fin 8192) (j : Fin 256) :
    ReadP.val_main_v33 (F := Ideal) x0 x2 x3 x4 x5 (ix2 r j) = hidden (fun r k => ReadP.val_main_v23 (F := Ideal) x0 x2 x3 x4 x5 (ix2 r k)) (fun j k => x4 (ix3 (1 : Fin 3) j k)) (fun j => x5 (ix2 (1 : Fin 3) j)) r j := by
  rw [ReadP.val_main_v33_apply, ReadP.val_main_v32_apply, ReadP.val_main_v27_apply, ReadP.val_main_call2_v0_apply, ReadP.val_main_call2_cst_apply, bias2]
  simp only [Ideal.maximumf_def, Ideal.addf_def, Ideal.ofBits_def, Ideal.ofBits_zero_f32]
  unfold hidden
  refine congrArg (fun s => max (s + x5 (ix2 (1 : Fin 3) j)) 0) (Finset.sum_congr rfl fun k _ => ?_)
  have el : ReadP.lidx_main_v27 (ix2 r j) k = ix2 r k := funext fun a => Fin.ext (by match a with | ⟨0, _⟩ => rfl | ⟨1, _⟩ => rfl)
  have er : ReadP.ridx_main_v27 (ix2 r j) k = ix2 k j := funext fun a => Fin.ext (by match a with | ⟨0, _⟩ => rfl | ⟨1, _⟩ => rfl)
  rw [el, er, weight2]

/-- A node's own row plus the adjacency-weighted sum of all rows. -/
theorem mixed2 (r : Fin 8192) (j : Fin 256) :
    ReadP.val_main_v35 (F := Ideal) x0 x2 x3 x4 x5 (ix2 r j) = mixed (fun r c : Fin 8192 => x2 (ix2 r c)) (hidden (fun r k => ReadP.val_main_v23 (F := Ideal) x0 x2 x3 x4 x5 (ix2 r k)) (fun j k => x4 (ix3 (1 : Fin 3) j k)) (fun j => x5 (ix2 (1 : Fin 3) j))) r j := by
  rw [ReadP.val_main_v35_apply, ReadP.val_main_v34_apply, hidden2]
  simp only [Ideal.addf_def]
  unfold mixed
  refine congrArg (_ + ·) (Finset.sum_congr rfl fun c _ => ?_)
  have el : ReadP.lidx_main_v34 (ix2 r j) c = ix2 r c := funext fun a => Fin.ext (by match a with | ⟨0, _⟩ => rfl | ⟨1, _⟩ => rfl)
  have er : ReadP.ridx_main_v34 (ix2 r j) c = ix2 c j := funext fun a => Fin.ext (by match a with | ⟨0, _⟩ => rfl | ⟨1, _⟩ => rfl)
  rw [el, er, hidden2]

/-- The row divided by its length, the length floored. -/
theorem layer2_at (r : Fin 8192) (j : Fin 256) :
    ReadP.val_main_v40 (F := Ideal) x0 x2 x3 x4 x5 (ix2 r j) = layerFn (fun r c : Fin 8192 => x2 (ix2 r c)) (fun r k => ReadP.val_main_v23 (F := Ideal) x0 x2 x3 x4 x5 (ix2 r k)) (fun j k => x4 (ix3 (1 : Fin 3) j k)) (fun j => x5 (ix2 (1 : Fin 3) j)) r j := by
  rw [ReadP.val_main_v40_apply, ReadP.val_main_v39_apply, ReadP.val_main_v38_apply, ReadP.val_main_v37_apply, ReadP.val_main_cst_1_apply, ReadP.val_main_v36_apply,
    ReadP.val_main_call3_v2_apply, ReadP.val_main_call3_v1_apply, ReadP.val_main_call3_cst_apply, mixed2]
  simp only [Ideal.hostDivf_def, Ideal.maximumf_def, Ideal.hostUnary_sqrt_def, Ideal.ofBits_def, Ideal.ofBits_zero_f32, zero_add]
  unfold layerFn normalized
  have hs : (∑ k : Fin 256, ReadP.val_main_call3_v0 (F := Ideal) x0 x2 x3 x4 x5
        (ReadP.idx_main_call3_v1 (ReadP.idx_main_call3_v2 (ReadP.idx_main_v39 (ix2 r j))) k))
      = ∑ k : Fin 256, mixed (fun r c : Fin 8192 => x2 (ix2 r c)) (hidden (fun r k => ReadP.val_main_v23 (F := Ideal) x0 x2 x3 x4 x5 (ix2 r k)) (fun j k => x4 (ix3 (1 : Fin 3) j k)) (fun j => x5 (ix2 (1 : Fin 3) j))) r k * mixed (fun r c : Fin 8192 => x2 (ix2 r c)) (hidden (fun r k => ReadP.val_main_v23 (F := Ideal) x0 x2 x3 x4 x5 (ix2 r k)) (fun j k => x4 (ix3 (1 : Fin 3) j k)) (fun j => x5 (ix2 (1 : Fin 3) j))) r k :=
    Finset.sum_congr rfl fun k _ => by
      have e : ReadP.idx_main_call3_v1 (ReadP.idx_main_call3_v2 (ReadP.idx_main_v39 (ix2 r j))) k = ix2 r k :=
        funext fun a => Fin.ext (by match a with | ⟨0, _⟩ => rfl | ⟨1, _⟩ => rfl)
      rw [ReadP.val_main_call3_v0_apply, e, mixed2]
      rfl
  rw [hs]

/-- The second layer of the reference is the layer function of its input rows. -/
theorem layer2 (i : S8192x256.Idx) :
    ReadP.val_main_v40 (F := Ideal) x0 x2 x3 x4 x5 i = layerFn (fun r c : Fin 8192 => x2 (ix2 r c)) (fun r k => ReadP.val_main_v23 (F := Ideal) x0 x2 x3 x4 x5 (ix2 r k)) (fun j k => x4 (ix3 (1 : Fin 3) j k)) (fun j => x5 (ix2 (1 : Fin 3) j)) (i 0) (i 1) :=
  (congrArg (ReadP.val_main_v40 (F := Ideal) x0 x2 x3 x4 x5) (eq_ix2 i)).trans (layer2_at x0 x2 x3 x4 x5 (i 0) (i 1))

/-! ## The third layer -/

/-- The transposed third slice of the weights at `(k, j)` is `w[2][j][k]`: the reshape's row-major position
    `j · 256 + k` splits back into `j` and `k`. -/
theorem weight3 (k j : Fin 256) :
    ReadP.val_main_v43 (F := Ideal) x4 (ix2 k j) = x4 (ix3 (2 : Fin 3) j k) := by
  rw [ReadP.val_main_v43_apply, ReadP.val_main_v42_apply, ReadP.val_main_v41_apply]
  refine congrArg x4 (funext fun a => Fin.ext ?_)
  have hj := j.isLt
  have hk := k.isLt
  match a with
  | ⟨0, _⟩ => rfl
  | ⟨1, _⟩ => show (j.val * 256 + k.val) / 256 % 256 = j.val; omega
  | ⟨2, _⟩ => show (j.val * 256 + k.val) % 256 = k.val; omega

/-- The third slice of the biases, broadcast over the rows, at `(r, j)` is `b[2][j]`. -/
theorem bias3 (r : Fin 8192) (j : Fin 256) :
    ReadP.val_main_v48 (F := Ideal) x5 (ix2 r j) = x5 (ix2 (2 : Fin 3) j) := by
  rw [ReadP.val_main_v48_apply, ReadP.val_main_v47_apply, ReadP.val_main_v46_apply, ReadP.val_main_v45_apply]
  refine congrArg x5 (funext fun a => Fin.ext ?_)
  match a with
  | ⟨0, _⟩ => rfl
  | ⟨1, _⟩ => show j.val % 256 = j.val; exact Nat.mod_eq_of_lt j.isLt

/-- The linear map of a node's row and the maximum with zero. -/
theorem hidden3 (r : Fin 8192) (j : Fin 256) :
    ReadP.val_main_v50 (F := Ideal) x0 x2 x3 x4 x5 (ix2 r j) = hidden (fun r k => ReadP.val_main_v40 (F := Ideal) x0 x2 x3 x4 x5 (ix2 r k)) (fun j k => x4 (ix3 (2 : Fin 3) j k)) (fun j => x5 (ix2 (2 : Fin 3) j)) r j := by
  rw [ReadP.val_main_v50_apply, ReadP.val_main_v49_apply, ReadP.val_main_v44_apply, ReadP.val_main_call4_v0_apply, ReadP.val_main_call4_cst_apply, bias3]
  simp only [Ideal.maximumf_def, Ideal.addf_def, Ideal.ofBits_def, Ideal.ofBits_zero_f32]
  unfold hidden
  refine congrArg (fun s => max (s + x5 (ix2 (2 : Fin 3) j)) 0) (Finset.sum_congr rfl fun k _ => ?_)
  have el : ReadP.lidx_main_v44 (ix2 r j) k = ix2 r k := funext fun a => Fin.ext (by match a with | ⟨0, _⟩ => rfl | ⟨1, _⟩ => rfl)
  have er : ReadP.ridx_main_v44 (ix2 r j) k = ix2 k j := funext fun a => Fin.ext (by match a with | ⟨0, _⟩ => rfl | ⟨1, _⟩ => rfl)
  rw [el, er, weight3]

/-- A node's own row plus the adjacency-weighted sum of all rows. -/
theorem mixed3 (r : Fin 8192) (j : Fin 256) :
    ReadP.val_main_v52 (F := Ideal) x0 x2 x3 x4 x5 (ix2 r j) = mixed (fun r c : Fin 8192 => x2 (ix2 r c)) (hidden (fun r k => ReadP.val_main_v40 (F := Ideal) x0 x2 x3 x4 x5 (ix2 r k)) (fun j k => x4 (ix3 (2 : Fin 3) j k)) (fun j => x5 (ix2 (2 : Fin 3) j))) r j := by
  rw [ReadP.val_main_v52_apply, ReadP.val_main_v51_apply, hidden3]
  simp only [Ideal.addf_def]
  unfold mixed
  refine congrArg (_ + ·) (Finset.sum_congr rfl fun c _ => ?_)
  have el : ReadP.lidx_main_v51 (ix2 r j) c = ix2 r c := funext fun a => Fin.ext (by match a with | ⟨0, _⟩ => rfl | ⟨1, _⟩ => rfl)
  have er : ReadP.ridx_main_v51 (ix2 r j) c = ix2 c j := funext fun a => Fin.ext (by match a with | ⟨0, _⟩ => rfl | ⟨1, _⟩ => rfl)
  rw [el, er, hidden3]

/-- The row divided by its length, the length floored. -/
theorem layer3_at (r : Fin 8192) (j : Fin 256) :
    ReadP.val_main_v57 (F := Ideal) x0 x2 x3 x4 x5 (ix2 r j) = layerFn (fun r c : Fin 8192 => x2 (ix2 r c)) (fun r k => ReadP.val_main_v40 (F := Ideal) x0 x2 x3 x4 x5 (ix2 r k)) (fun j k => x4 (ix3 (2 : Fin 3) j k)) (fun j => x5 (ix2 (2 : Fin 3) j)) r j := by
  rw [ReadP.val_main_v57_apply, ReadP.val_main_v56_apply, ReadP.val_main_v55_apply, ReadP.val_main_v54_apply, ReadP.val_main_cst_2_apply, ReadP.val_main_v53_apply,
    ReadP.val_main_call5_v2_apply, ReadP.val_main_call5_v1_apply, ReadP.val_main_call5_cst_apply, mixed3]
  simp only [Ideal.hostDivf_def, Ideal.maximumf_def, Ideal.hostUnary_sqrt_def, Ideal.ofBits_def, Ideal.ofBits_zero_f32, zero_add]
  unfold layerFn normalized
  have hs : (∑ k : Fin 256, ReadP.val_main_call5_v0 (F := Ideal) x0 x2 x3 x4 x5
        (ReadP.idx_main_call5_v1 (ReadP.idx_main_call5_v2 (ReadP.idx_main_v56 (ix2 r j))) k))
      = ∑ k : Fin 256, mixed (fun r c : Fin 8192 => x2 (ix2 r c)) (hidden (fun r k => ReadP.val_main_v40 (F := Ideal) x0 x2 x3 x4 x5 (ix2 r k)) (fun j k => x4 (ix3 (2 : Fin 3) j k)) (fun j => x5 (ix2 (2 : Fin 3) j))) r k * mixed (fun r c : Fin 8192 => x2 (ix2 r c)) (hidden (fun r k => ReadP.val_main_v40 (F := Ideal) x0 x2 x3 x4 x5 (ix2 r k)) (fun j k => x4 (ix3 (2 : Fin 3) j k)) (fun j => x5 (ix2 (2 : Fin 3) j))) r k :=
    Finset.sum_congr rfl fun k _ => by
      have e : ReadP.idx_main_call5_v1 (ReadP.idx_main_call5_v2 (ReadP.idx_main_v56 (ix2 r j))) k = ix2 r k :=
        funext fun a => Fin.ext (by match a with | ⟨0, _⟩ => rfl | ⟨1, _⟩ => rfl)
      rw [ReadP.val_main_call5_v0_apply, e, mixed3]
      rfl
  rw [hs]

/-- The third layer of the reference is the layer function of its input rows. -/
theorem layer3 (i : S8192x256.Idx) :
    ReadP.val_main_v57 (F := Ideal) x0 x2 x3 x4 x5 i = layerFn (fun r c : Fin 8192 => x2 (ix2 r c)) (fun r k => ReadP.val_main_v40 (F := Ideal) x0 x2 x3 x4 x5 (ix2 r k)) (fun j k => x4 (ix3 (2 : Fin 3) j k)) (fun j => x5 (ix2 (2 : Fin 3) j)) (i 0) (i 1) :=
  (congrArg (ReadP.val_main_v57 (F := Ideal) x0 x2 x3 x4 x5) (eq_ix2 i)).trans (layer3_at x0 x2 x3 x4 x5 (i 0) (i 1))

end Cert.Gnn.Ref

end
-- ==== Proof.Bridge.lean ====
/-
  The two programs compute one function.

  Reference: its result is the readout (pooling, dense layers, projection) of its third layer's output, and its three layers
  are `layers3` of the whole graph on the nodes' embedding rows, with `W_l[j][k] = w_sub[l][j][k]` (`ref_layers`, from the
  three layer lemmas of Proof/RefLayers.lean).
  Kernel: its region's output array `G` is `layers3` of the whole graph on the arrays the region finds — the embedding rows,
  the adjacency, the TRANSPOSED weights read back as `w_sub[l][j][k]`, the biases. So `G` is the reference's third layer
  (`G_eq`), entry by entry.
-/
import proofs.«145918_j75840532512927_2_alg».proof.Proof.KernelRun
import proofs.«145918_j75840532512927_2_alg».proof.Proof.RefLayers
import proofs.«145918_j75840532512927_2_alg».proof.Proof.RefRun

set_option maxRecDepth 16384

noncomputable section

namespace Cert.Gnn.Bridge

open Idealize.ShloMosaic Idealize.ShloMosaic.ValueIdx Cert.Gnn
open Cert.ReferenceIdeal

/-! ## The reference -/

/-- The reference's result is the readout of its third layer. -/
theorem ref_result (x0 : (⟨S8192, .i32⟩ : BufTy).Contents (Elt Ideal)) (x1 : (⟨S8192, .i32⟩ : BufTy).Contents (Elt Ideal)) (x2 : (⟨S8192x8192, .f32⟩ : BufTy).Contents (Elt Ideal)) (x3 : (⟨S10000x256, .f32⟩ : BufTy).Contents (Elt Ideal)) (x4 : (⟨S3x256x256, .f32⟩ : BufTy).Contents (Elt Ideal)) (x5 : (⟨S3x256, .f32⟩ : BufTy).Contents (Elt Ideal)) (x6 : (⟨S2x256x256, .f32⟩ : BufTy).Contents (Elt Ideal)) (x7 : (⟨S2x256, .f32⟩ : BufTy).Contents (Elt Ideal)) (x8 : (⟨S1x256, .f32⟩ : BufTy).Contents (Elt Ideal)) (x9 : (⟨S1, .f32⟩ : BufTy).Contents (Elt Ideal)) :
    ReadP.val_main_v85 (F := Ideal) x0 x1 x2 x3 x4 x5 x6 x7 x8 x9
      = Host.readout (F := Ideal) (ReadP.val_main_v57 (F := Ideal) x0 x2 x3 x4 x5) x1 x6 x7 x8 x9 := rfl

/-- Its layers start from the nodes' embedding rows. -/
theorem ref_rows (x0 : (⟨S8192, .i32⟩ : BufTy).Contents (Elt Ideal)) (x3 : (⟨S10000x256, .f32⟩ : BufTy).Contents (Elt Ideal)) : ReadP.val_main_v6 (F := Ideal) x0 x3 = Host.nodeRows (F := Ideal) x0 x3 := rfl

/-- Its third layer's output is three layers of the whole graph. -/
theorem ref_layers (x0 : (⟨S8192, .i32⟩ : BufTy).Contents (Elt Ideal)) (x2 : (⟨S8192x8192, .f32⟩ : BufTy).Contents (Elt Ideal)) (x3 : (⟨S10000x256, .f32⟩ : BufTy).Contents (Elt Ideal)) (x4 : (⟨S3x256x256, .f32⟩ : BufTy).Contents (Elt Ideal)) (x5 : (⟨S3x256, .f32⟩ : BufTy).Contents (Elt Ideal)) (r : Fin 8192) (j : Fin 256) :
    ReadP.val_main_v57 (F := Ideal) x0 x2 x3 x4 x5 (ix2 r j)
      = layers3 (fun r c : Fin 8192 => x2 (ix2 r c)) (fun r k => Host.nodeRows (F := Ideal) x0 x3 (ix2 r k))
          (fun j k => x4 (ix3 (0 : Fin 3) j k)) (fun j => x5 (ix2 (0 : Fin 3) j))
          (fun j k => x4 (ix3 (1 : Fin 3) j k)) (fun j => x5 (ix2 (1 : Fin 3) j))
          (fun j k => x4 (ix3 (2 : Fin 3) j k)) (fun j => x5 (ix2 (2 : Fin 3) j)) r j := by
  unfold layers3
  rw [Ref.layer3_at]
  have h2 : (fun r k => ReadP.val_main_v40 (F := Ideal) x0 x2 x3 x4 x5 (ix2 r k))
      = layerFn (fun r c : Fin 8192 => x2 (ix2 r c))
          (layerFn (fun r c : Fin 8192 => x2 (ix2 r c)) (fun r k => Host.nodeRows (F := Ideal) x0 x3 (ix2 r k))
            (fun j k => x4 (ix3 (0 : Fin 3) j k)) (fun j => x5 (ix2 (0 : Fin 3) j)))
          (fun j k => x4 (ix3 (1 : Fin 3) j k)) (fun j => x5 (ix2 (1 : Fin 3) j)) := by
    funext r k
    rw [Ref.layer2_at]
    have h1 : (fun r k => ReadP.val_main_v23 (F := Ideal) x0 x2 x3 x4 x5 (ix2 r k))
        = layerFn (fun r c : Fin 8192 => x2 (ix2 r c)) (fun r k => Host.nodeRows (F := Ideal) x0 x3 (ix2 r k))
            (fun j k => x4 (ix3 (0 : Fin 3) j k)) (fun j => x5 (ix2 (0 : Fin 3) j)) := by
      funext r k
      rw [Ref.layer1_at]
      rfl
    rw [h1]
  rw [h2]

/-! ## The kernel's output array is the reference's third layer -/

/-- Three layers only see their arrays entry by entry. -/
theorem layers3_congr {ι : Type} [Fintype ι] {A A' : ι → ι → EReal} {v v' : ι → Fin 256 → EReal}
    {W0 W0' W1 W1' W2 W2' : Fin 256 → Fin 256 → EReal} {b0 b0' b1 b1' b2 b2' : Fin 256 → EReal}
    (hA : ∀ r c, A r c = A' r c) (hv : ∀ r k, v r k = v' r k)
    (hW0 : ∀ j k, W0 j k = W0' j k) (hb0 : ∀ j, b0 j = b0' j) (hW1 : ∀ j k, W1 j k = W1' j k) (hb1 : ∀ j, b1 j = b1' j)
    (hW2 : ∀ j k, W2 j k = W2' j k) (hb2 : ∀ j, b2 j = b2' j) :
    layers3 A v W0 b0 W1 b1 W2 b2 = layers3 A' v' W0' b0' W1' b1' W2' b2' := by
  rw [show A = A' from funext fun r => funext fun c => hA r c, show v = v' from funext fun r => funext fun k => hv r k,
    show W0 = W0' from funext fun j => funext fun k => hW0 j k, show b0 = b0' from funext hb0,
    show W1 = W1' from funext fun j => funext fun k => hW1 j k, show b1 = b1' from funext hb1,
    show W2 = W2' from funext fun j => funext fun k => hW2 j k, show b2 = b2' from funext hb2]

/-- The array the kernel's region leaves is the reference's third layer of the same arguments: the region finds the
    embedding rows, the adjacency and the biases as the reference reads them, and its transposed weights at `(l, k, j)` are
    the reference's at `(l, j, k)`. -/
theorem G_eq (m : (ℓ : Loc Cert.KernelIdeal.nD Cert.KernelIdeal.τ Cert.KernelIdeal.sig) → Buf (Elt Ideal) ℓ) (c : Dev Cert.KernelIdeal.nD) :
    Kernel.G m c = ReadP.val_main_v57 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext i
  obtain ⟨r, j, rfl⟩ : ∃ (r : Fin 8192) (j : Fin 256), i = ix2 r j := ⟨i 0, i 1, eq_ix2 i⟩
  rw [ref_layers]
  show Kernel.wholeGraph (Cert.KernelIdeal.Gen.V m c Cert.KernelIdeal.main_v6) (Cert.KernelIdeal.Gen.V m c Cert.KernelIdeal.main_arg2)
    (Cert.KernelIdeal.Gen.V m c Cert.KernelIdeal.main_v7) (Cert.KernelIdeal.Gen.V m c Cert.KernelIdeal.main_arg5) r j = _
  unfold Kernel.wholeGraph
  exact congrFun (congrFun (layers3_congr
    (fun r c' => congrFun (Cert.KernelIdeal.Gen.V_main_arg2 m c) (ix2 r c'))
    (fun r k => congrFun (Kernel.V_rows m c) (ix2 r k))
    (fun j k => Kernel.V_weights m c 0 k j) (fun j => congrFun (Cert.KernelIdeal.Gen.V_main_arg5 m c) (ix2 (0 : Fin 3) j))
    (fun j k => Kernel.V_weights m c 1 k j) (fun j => congrFun (Cert.KernelIdeal.Gen.V_main_arg5 m c) (ix2 (1 : Fin 3) j))
    (fun j k => Kernel.V_weights m c 2 k j) (fun j => congrFun (Cert.KernelIdeal.Gen.V_main_arg5 m c) (ix2 (2 : Fin 3) j))) r) j

end Cert.Gnn.Bridge

end
-- ==== Proof.lean ====
/-
  A graph network on 8192 nodes (256 molecules of 32 nodes): the nodes' embedding rows; three message-passing layers
  `h = relu(v W_lᵀ + b_l)`, `g = h + A h`, `v' = g / max(‖g‖₂, ε)` row by row; the rows summed per molecule; two dense layers
  and a projection. The kernel runs the three layers in ONE region over 16 tiles of 512 nodes, and at each tile multiplies by
  the DIAGONAL 512 × 512 tile of the adjacency `A` only; the reference multiplies by the whole `A`.

  The two agree — as extended reals, entry by entry, with no finiteness needed — exactly when `A` has no entry between two
  tiles. The precondition says that `A` is block-diagonal with blocks of 32 (the molecules), which gives it. Then:
    • a tile's three layers only ever look at the tile's own rows (Proof/LayerSpec.lean, Proof/Layers3.lean: a sum over all
      nodes whose terms vanish off the tile is the sum over the tile, `0 · x = 0` for every extended real);
    • the kernel body at a grid point is three layers of the tile's subgraph (Proof/TileLayer.lean), its 16 blocks fill the
      output array with three layers of the whole graph (Proof/KernelValue.lean, Proof/KernelRun.lean);
    • the reference's three layers are the same function (Proof/RefLayers.lean over the read-back reference,
      Proof/Bridge.lean), its weights transposed where the kernel's host code transposed them;
    • what comes before (the gather of embedding rows) and after (pooling, dense layers, projection) is the same host code in
      both programs (Proof/HostParts.lean), never opened.
  The three frames are the generated ones (the reference's is its run with the result dropped); the idealization rewrote
  nothing, so `preserves` is `True`.
-/
import proofs.«145918_j75840532512927_2_alg».proof.Defs
import proofs.«145918_j75840532512927_2_alg».proof.Proof.Gen.Kernel
import proofs.«145918_j75840532512927_2_alg».proof.Proof.Gen.Kernel.Skeleton
import proofs.«145918_j75840532512927_2_alg».proof.Proof.Gen.Kernel.Launch
import proofs.«145918_j75840532512927_2_alg».proof.Proof.Gen.Kernel.Points
import proofs.«145918_j75840532512927_2_alg».proof.Proof.Gen.Kernel.Frame
import proofs.«145918_j75840532512927_2_alg».proof.Proof.Gen.KernelIdeal
import proofs.«145918_j75840532512927_2_alg».proof.Proof.Gen.KernelIdeal.Skeleton
import proofs.«145918_j75840532512927_2_alg».proof.Proof.Gen.KernelIdeal.Launch
import proofs.«145918_j75840532512927_2_alg».proof.Proof.Gen.KernelIdeal.Points
import proofs.«145918_j75840532512927_2_alg».proof.Proof.Gen.KernelIdeal.Frame
import proofs.«145918_j75840532512927_2_alg».proof.Proof.Gen.ReferenceIdeal
import proofs.«145918_j75840532512927_2_alg».proof.Proof.Gen.Pre_finite_inputs
import proofs.«145918_j75840532512927_2_alg».proof.Proof.AdjBlockDiag
import proofs.«145918_j75840532512927_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Cert.Gnn

theorem frame_kernel : Cert.frame_Kernel := fun m ρ _ => Cert.Kernel.Gen.frame m ρ
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the readout of three layers of the whole graph: the kernel's by its run under the block-diagonal
    adjacency the precondition states, the reference's by its run read back; the two arrays of node rows are equal. -/
theorem algebraic : Cert.algebraic_KernelIdeal_ReferenceIdeal := by
  intro m ρ m' ρ' hpre hagree
  have hA : ∀ c, Kernel.BlockDiag m c := fun c =>
    Cert.Gnn.adj_blockDiag_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (hpre c)
  refine ⟨fun c => Host.readout (F := Ideal) (Kernel.G m c) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Kernel.run m ρ hA, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  rw [h0, h1, h2, h3, h4, h5, h6, h7, h8, h9, Bridge.ref_result]
  exact congrArg (fun u => Host.readout (F := Ideal) u (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)))
    (Bridge.G_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
